-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S4096x2 : Shape := ⟨2, ![4096, 2]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S2048x2x1024 .f32) (main_arg1 : FVec F S4096x2 .f32) (main_arg2 : IVec S4096x2 32) (main_arg3 : FVec F S8x1024x4096 .f32) (main_arg4 : FVec F S8x4096x1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S2048x2x1024 : Shape := ⟨3, ![2048, 2, 1024]⟩
abbrev S4096x2 : Shape := ⟨2, ![4096, 2]⟩
abbrev S8x1024x4096 : Shape := ⟨3, ![8, 1024, 4096]⟩
abbrev S8x4096x1024 : Shape := ⟨3, ![8, 4096, 1024]⟩
abbrev S4096x1024 : Shape := ⟨2, ![4096, 1024]⟩
abbrev S8 : Shape := ⟨1, ![8]⟩
abbrev S4096x2x1 : Shape := ⟨3, ![4096, 2, 1]⟩
abbrev S1x1x8 : Shape := ⟨3, ![1, 1, 8]⟩
abbrev S4096x2x8 : Shape := ⟨3, ![4096, 2, 8]⟩
abbrev S_ : Shape := ⟨0, ![]⟩
abbrev S4096x8 : Shape := ⟨2, ![4096, 8]⟩
abbrev S512x1024 : Shape := ⟨2, ![512, 1024]⟩
abbrev S1x1024x2048 : Shape := ⟨3, ![1, 1024, 2048]⟩
abbrev S1x2048x1024 : Shape := ⟨3, ![1, 2048, 1024]⟩
abbrev S512x8 : Shape := ⟨2, ![512, 8]⟩
abbrev S1024x2048 : Shape := ⟨2, ![1024, 2048]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S2048x2x1024, .f32⟩
  | .hbm, ⟨1, _⟩ => ⟨S4096x2, .f32⟩
  | .hbm, ⟨2, _⟩ => ⟨S4096x2, .i32⟩
  | .hbm, ⟨3, _⟩ => ⟨S8x1024x4096, .f32⟩
  | .hbm, ⟨4, _⟩ => ⟨S8x4096x1024, .f32⟩
  | .hbm, ⟨5, _⟩ => ⟨S4096x1024, .f32⟩
  | .hbm, ⟨6, _⟩ => ⟨S8, .i32⟩
  | .hbm, ⟨7, _⟩ => ⟨S4096x2x1, .i32⟩
  | .hbm, ⟨8, _⟩ => ⟨S1x1x8, .i32⟩
  | .hbm, ⟨9, _⟩ => ⟨S4096x2x8, .i32⟩
  | .hbm, ⟨10, _⟩ => ⟨S4096x2x8, .i32⟩
  | .hbm, ⟨11, _⟩ => ⟨S4096x2x8, .i1⟩
  | .hbm, ⟨12, _⟩ => ⟨S4096x2x1, .f32⟩
  | .hbm, ⟨13, _⟩ => ⟨S_, .f32⟩
  | .hbm, ⟨14, _⟩ => ⟨S_, .f32⟩
  | .hbm, ⟨15, _⟩ => ⟨S4096x2x8, .f32⟩
  | .hbm, ⟨16, _⟩ => ⟨S4096x2x8, .f32⟩
  | .hbm, ⟨17, _⟩ => ⟨S4096x2x8, .f32⟩
  | .hbm, ⟨18, _⟩ => ⟨S_, .f32⟩
  | .hbm, ⟨19, _⟩ => ⟨S4096x8, .f32⟩
  | .hbm, ⟨20, _⟩ => ⟨S4096x1024, .bf16⟩
  | .hbm, ⟨21, _⟩ => ⟨S8x1024x4096, .bf16⟩
  | .hbm, ⟨22, _⟩ => ⟨S8x4096x1024, .bf16⟩
  | .hbm, ⟨23, _⟩ => ⟨S4096x1024, .f32⟩
  | .hbm, ⟨24, _⟩ => ⟨S2048x2x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S512x8, .f32⟩
  | .local _ .vmem, ⟨7, _⟩ => ⟨S512x8, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let arg2 : BitVec 32 := BitVec.ofNat 32 (i 2).val
  let c1_i32 : BitVec 32 := 1#32
  let v44 : BitVec 1 := Scalar.cmpi .eq arg2 c1_i32
  let v45 : BitVec 1 := Scalar.andi v43 v44
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S2048x2x1024_S4096x1024 : S2048x2x1024.ShapeCasts S4096x1024
  bcast_S4096x2_S4096x2x1_0_1 : S4096x2.BroadcastsInDim S4096x2x1 (![0, 1] : Fin 2 → Fin S4096x2x1.rank)
  bcast_S8_S1x1x8_2 : S8.BroadcastsInDim S1x1x8 (![2] : Fin 1 → Fin S1x1x8.rank)
  bcast_S4096x2x1_S4096x2x8_0_1_2 : S4096x2x1.BroadcastsInDim S4096x2x8 (![0, 1, 2] : Fin 3 → Fin S4096x2x8.rank)
  bcast_S1x1x8_S4096x2x8_0_1_2 : S1x1x8.BroadcastsInDim S4096x2x8 (![0, 1, 2] : Fin 3 → Fin S4096x2x8.rank)
  bcast_S_S4096x2x8 : S_.BroadcastsInDim S4096x2x8 (![] : Fin 0 → Fin S4096x2x8.rank)
  reducesTo_S4096x2x8_S4096x8_d1 : S4096x2x8.ReducesTo [1] S4096x8
  h_S_ : 0 < S_.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  iota_S512x8_d1_w32 : S512x8.Iotas .tc 32 [1]
  inb_S512x8_S512x8_0_0 : ∀ a, (![0, 0] : Fin 2 → Nat) a + S512x8.size a ≤ S512x8.size a
  h_S512x8 : 0 < S512x8.numel
  shapeCasts_S512x8_S512x8 : S512x8.ShapeCasts S512x8
  reduces_S512x8_S512 : S512x8.Reduces [1] S512
  shapeCasts_S512_S512x1 : S512.ShapeCasts S512x1
  broadcasts_S512x1_S512x1024 : S512x1.Broadcasts S512x1024
  shapeCasts_S4096x1024_S2048x2x1024 : S4096x1024.ShapeCasts S2048x2x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x4096.size a
  hwx0_1 : ∀ i : grid0.Coords, EltTy.bits .bf16 = 32 ∨ (Rect.block (s := S8x1024x4096) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x4096x1024.size a
  hwx0_2 : ∀ i : grid0.Coords, EltTy.bits .bf16 = 32 ∨ (Rect.block (s := S8x4096x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S4096x8.size a
  hwx0_3 : ∀ i : grid0.Coords, EltTy.bits .f32 = 32 ∨ (Rect.block (s := S4096x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x2x1024 : Shape := ⟨3, ![2048, 2, 1024]⟩
abbrev S4096x2 : Shape := ⟨2, ![4096, 2]⟩
abbrev S8x1024x4096 : Shape := ⟨3, ![8, 1024, 4096]⟩
abbrev S8x4096x1024 : Shape := ⟨3, ![8, 4096, 1024]⟩
abbrev S4096x1024 : Shape := ⟨2, ![4096, 1024]⟩
abbrev S_ : Shape := ⟨0, ![]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩
abbrev S4096 : Shape := ⟨1, ![4096]⟩
abbrev S4096x1 : Shape := ⟨2, ![4096, 1]⟩

abbrev nBuf : Space → Nat
  | .hbm => 297
  | .vmem => 0
  | .smem => 0
  | _ => 0

abbrev hbmTy0_0 (i : Nat) : BufTy := match i % 128 with
  | 0 => ⟨S2048x2x1024, .f32⟩
  | 1 => ⟨S4096x2, .f32⟩
  | 2 => ⟨S4096x2, .i32⟩
  | 3 => ⟨S8x1024x4096, .f32⟩
  | 4 => ⟨S8x4096x1024, .f32⟩
  | 5 => ⟨S4096x1024, .f32⟩
  | 6 => ⟨S_, .f32⟩
  | 7 => ⟨S4096x1024, .f32⟩
  | 8 => ⟨S1x1024x4096, .f32⟩
  | 9 => ⟨S1024x4096, .f32⟩
  | 10 => ⟨S4096x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S1x4096x1024, .f32⟩
  | 29 => ⟨S4096x1024, .f32⟩
  | 30 => ⟨S4096x1024, .f32⟩
  | 31 => ⟨S_, .i32⟩
  | 32 => ⟨S4096x2, .i32⟩
  | 33 => ⟨S4096x2, .i1⟩
  | 34 => ⟨S_, .f32⟩
  | 35 => ⟨S_, .f32⟩
  | 36 => ⟨S4096x2, .f32⟩
  | 37 => ⟨S4096x2, .f32⟩
  | 38 => ⟨S_, .f32⟩
  | 39 => ⟨S4096, .f32⟩
  | 40 => ⟨S4096x1, .f32⟩
  | 41 => ⟨S4096x1024, .f32⟩
  | 42 => ⟨S4096x1024, .f32⟩
  | 43 => ⟨S4096x1024, .f32⟩
  | 44 => ⟨S1x1024x4096, .f32⟩
  | 45 => ⟨S1024x4096, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S4096x4096, .f32⟩
  | 64 => ⟨S1x4096x1024, .f32⟩
  | 65 => ⟨S4096x1024, .f32⟩
  | 66 => ⟨S4096x1024, .f32⟩
  | 67 => ⟨S_, .i32⟩
  | 68 => ⟨S4096x2, .i32⟩
  | 69 => ⟨S4096x2, .i1⟩
  | 70 => ⟨S_, .f32⟩
  | 71 => ⟨S_, .f32⟩
  | 72 => ⟨S4096x2, .f32⟩
  | 73 => ⟨S4096x2, .f32⟩
  | 74 => ⟨S_, .f32⟩
  | 75 => ⟨S4096, .f32⟩
  | 76 => ⟨S4096x1, .f32⟩
  | 77 => ⟨S4096x1024, .f32⟩
  | 78 => ⟨S4096x1024, .f32⟩
  | 79 => ⟨S4096x1024, .f32⟩
  | 80 => ⟨S1x1024x4096, .f32⟩
  | 81 => ⟨S1024x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .f32⟩
  | 88 => ⟨S4096x4096, .f32⟩
  | 89 => ⟨S_, .f32⟩
  | 90 => ⟨S4096x4096, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S1x4096x1024, .f32⟩
  | 101 => ⟨S4096x1024, .f32⟩
  | 102 => ⟨S4096x1024, .f32⟩
  | 103 => ⟨S_, .i32⟩
  | 104 => ⟨S4096x2, .i32⟩
  | 105 => ⟨S4096x2, .i1⟩
  | 106 => ⟨S_, .f32⟩
  | 107 => ⟨S_, .f32⟩
  | 108 => ⟨S4096x2, .f32⟩
  | 109 => ⟨S4096x2, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1024, .f32⟩
  | 116 => ⟨S1x1024x4096, .f32⟩
  | 117 => ⟨S1024x4096, .f32⟩
  | 118 => ⟨S4096x4096, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S2048x2x1024, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S_, .f32⟩
  | 5 => ⟨S4096x4096, .f32⟩
  | 6 => ⟨S4096x4096, .f32⟩
  | 7 => ⟨S4096x4096, .f32⟩
  | 8 => ⟨S1x4096x1024, .f32⟩
  | 9 => ⟨S4096x1024, .f32⟩
  | 10 => ⟨S4096x1024, .f32⟩
  | 11 => ⟨S_, .i32⟩
  | 12 => ⟨S4096x2, .i32⟩
  | 13 => ⟨S4096x2, .i1⟩
  | 14 => ⟨S_, .f32⟩
  | 15 => ⟨S_, .f32⟩
  | 16 => ⟨S4096x2, .f32⟩
  | 17 => ⟨S4096x2, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1024, .f32⟩
  | 24 => ⟨S1x1024x4096, .f32⟩
  | 25 => ⟨S1024x4096, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .f32⟩
  | 44 => ⟨S1x4096x1024, .f32⟩
  | 45 => ⟨S4096x1024, .f32⟩
  | 46 => ⟨S4096x1024, .f32⟩
  | 47 => ⟨S_, .i32⟩
  | 48 => ⟨S4096x2, .i32⟩
  | 49 => ⟨S4096x2, .i1⟩
  | 50 => ⟨S_, .f32⟩
  | 51 => ⟨S_, .f32⟩
  | 52 => ⟨S4096x2, .f32⟩
  | 53 => ⟨S4096x2, .f32⟩
  | 54 => ⟨S_, .f32⟩
  | 55 => ⟨S4096, .f32⟩
  | 56 => ⟨S4096x1, .f32⟩
  | 57 => ⟨S4096x1024, .f32⟩
  | 58 => ⟨S4096x1024, .f32⟩
  | 59 => ⟨S4096x1024, .f32⟩
  | 60 => ⟨S1x1024x4096, .f32⟩
  | 61 => ⟨S1024x4096, .f32⟩
  | 62 => ⟨S4096x4096, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S4096x4096, .f32⟩
  | 69 => ⟨S_, .f32⟩
  | 70 => ⟨S4096x4096, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S_, .f32⟩
  | 77 => ⟨S4096x4096, .f32⟩
  | 78 => ⟨S4096x4096, .f32⟩
  | 79 => ⟨S4096x4096, .f32⟩
  | 80 => ⟨S1x4096x1024, .f32⟩
  | 81 => ⟨S4096x1024, .f32⟩
  | 82 => ⟨S4096x1024, .f32⟩
  | 83 => ⟨S_, .i32⟩
  | 84 => ⟨S4096x2, .i32⟩
  | 85 => ⟨S4096x2, .i1⟩
  | 86 => ⟨S_, .f32⟩
  | 87 => ⟨S_, .f32⟩
  | 88 => ⟨S4096x2, .f32⟩
  | 89 => ⟨S4096x2, .f32⟩
  | 90 => ⟨S_, .f32⟩
  | 91 => ⟨S4096, .f32⟩
  | 92 => ⟨S4096x1, .f32⟩
  | 93 => ⟨S4096x1024, .f32⟩
  | 94 => ⟨S4096x1024, .f32⟩
  | 95 => ⟨S4096x1024, .f32⟩
  | 96 => ⟨S1x1024x4096, .f32⟩
  | 97 => ⟨S1024x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S4096x4096, .f32⟩
  | 109 => ⟨S_, .f32⟩
  | 110 => ⟨S4096x4096, .f32⟩
  | 111 => ⟨S4096x4096, .f32⟩
  | 112 => ⟨S_, .f32⟩
  | 113 => ⟨S4096x4096, .f32⟩
  | 114 => ⟨S4096x4096, .f32⟩
  | 115 => ⟨S4096x4096, .f32⟩
  | 116 => ⟨S1x4096x1024, .f32⟩
  | 117 => ⟨S4096x1024, .f32⟩
  | 118 => ⟨S4096x1024, .f32⟩
  | 119 => ⟨S_, .i32⟩
  | 120 => ⟨S4096x2, .i32⟩
  | 121 => ⟨S4096x2, .i1⟩
  | 122 => ⟨S_, .f32⟩
  | 123 => ⟨S_, .f32⟩
  | 124 => ⟨S4096x2, .f32⟩
  | 125 => ⟨S4096x2, .f32⟩
  | 126 => ⟨S_, .f32⟩
  | 127 => ⟨S4096, .f32⟩
  | _ => ⟨S2048x2x1024, .f32⟩

abbrev hbmTy0_2 (i : Nat) : BufTy := match i % 128 with
  | 0 => ⟨S4096x1, .f32⟩
  | 1 => ⟨S4096x1024, .f32⟩
  | 2 => ⟨S4096x1024, .f32⟩
  | 3 => ⟨S4096x1024, .f32⟩
  | 4 => ⟨S1x1024x4096, .f32⟩
  | 5 => ⟨S1024x4096, .f32⟩
  | 6 => ⟨S4096x4096, .f32⟩
  | 7 => ⟨S4096x4096, .f32⟩
  | 8 => ⟨S4096x4096, .f32⟩
  | 9 => ⟨S_, .f32⟩
  | 10 => ⟨S4096x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S4096x4096, .f32⟩
  | 24 => ⟨S1x4096x1024, .f32⟩
  | 25 => ⟨S4096x1024, .f32⟩
  | 26 => ⟨S4096x1024, .f32⟩
  | 27 => ⟨S_, .i32⟩
  | 28 => ⟨S4096x2, .i32⟩
  | 29 => ⟨S4096x2, .i1⟩
  | 30 => ⟨S_, .f32⟩
  | 31 => ⟨S_, .f32⟩
  | 32 => ⟨S4096x2, .f32⟩
  | 33 => ⟨S4096x2, .f32⟩
  | 34 => ⟨S_, .f32⟩
  | 35 => ⟨S4096, .f32⟩
  | 36 => ⟨S4096x1, .f32⟩
  | 37 => ⟨S4096x1024, .f32⟩
  | 38 => ⟨S4096x1024, .f32⟩
  | 39 => ⟨S4096x1024, .f32⟩
  | 40 => ⟨S2048x2x1024, .f32⟩
  | _ => ⟨S2048x2x1024, .f32⟩

abbrev hbmTy (i : Nat) : BufTy := match i / 128 with
  | 0 => hbmTy0_0 i
  | 1 => hbmTy0_1 i
  | 2 => hbmTy0_2 i
  | _ => ⟨S2048x2x1024, .f32⟩

abbrev bufTy : (tb : Table) → Fin (tcTables nBuf tb) → BufTy
  | .hbm, ⟨i, _⟩ => hbmTy i
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_17 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_call2_v0 : Ref sig .tc := ⟨.hbm, 107, rfl⟩
abbrev main_call2_v1 : Ref sig .tc := ⟨.hbm, 108, rfl⟩
abbrev main_v77 : Ref sig .tc := ⟨.hbm, 109, rfl⟩
abbrev main_cst_19 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_21 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_cst_23 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_24 : Ref sig .tc := ⟨.hbm, 139, rfl⟩
abbrev main_v102 : Ref sig .tc := ⟨.hbm, 140, rfl⟩
abbrev main_v103 : Ref sig .tc := ⟨.hbm, 141, rfl⟩
abbrev main_cst_25 : Ref sig .tc := ⟨.hbm, 142, rfl⟩
abbrev main_call3_v0 : Ref sig .tc := ⟨.hbm, 143, rfl⟩
abbrev main_call3_v1 : Ref sig .tc := ⟨.hbm, 144, rfl⟩
abbrev main_v104 : Ref sig .tc := ⟨.hbm, 145, rfl⟩
abbrev main_cst_26 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_27 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_28 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_29 : Ref sig .tc := ⟨.hbm, 165, rfl⟩
abbrev main_v121 : Ref sig .tc := ⟨.hbm, 166, rfl⟩
abbrev main_v122 : Ref sig .tc := ⟨.hbm, 167, rfl⟩
abbrev main_cst_30 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_31 : Ref sig .tc := ⟨.hbm, 175, rfl⟩
abbrev main_v129 : Ref sig .tc := ⟨.hbm, 176, rfl⟩
abbrev main_v130 : Ref sig .tc := ⟨.hbm, 177, rfl⟩
abbrev main_cst_32 : Ref sig .tc := ⟨.hbm, 178, rfl⟩
abbrev main_call4_v0 : Ref sig .tc := ⟨.hbm, 179, rfl⟩
abbrev main_call4_v1 : Ref sig .tc := ⟨.hbm, 180, rfl⟩
abbrev main_v131 : Ref sig .tc := ⟨.hbm, 181, rfl⟩
abbrev main_cst_33 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_34 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_35 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_36 : Ref sig .tc := ⟨.hbm, 201, rfl⟩
abbrev main_v148 : Ref sig .tc := ⟨.hbm, 202, rfl⟩
abbrev main_v149 : Ref sig .tc := ⟨.hbm, 203, rfl⟩
abbrev main_cst_37 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_c_38 : Ref sig .tc := ⟨.hbm, 211, rfl⟩
abbrev main_v156 : Ref sig .tc := ⟨.hbm, 212, rfl⟩
abbrev main_v157 : Ref sig .tc := ⟨.hbm, 213, rfl⟩
abbrev main_cst_39 : Ref sig .tc := ⟨.hbm, 214, rfl⟩
abbrev main_call5_v0 : Ref sig .tc := ⟨.hbm, 215, rfl⟩
abbrev main_call5_v1 : Ref sig .tc := ⟨.hbm, 216, rfl⟩
abbrev main_v158 : Ref sig .tc := ⟨.hbm, 217, rfl⟩
abbrev main_cst_40 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_41 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_42 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_43 : Ref sig .tc := ⟨.hbm, 237, rfl⟩
abbrev main_v175 : Ref sig .tc := ⟨.hbm, 238, rfl⟩
abbrev main_v176 : Ref sig .tc := ⟨.hbm, 239, rfl⟩
abbrev main_cst_44 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_45 : Ref sig .tc := ⟨.hbm, 247, rfl⟩
abbrev main_v183 : Ref sig .tc := ⟨.hbm, 248, rfl⟩
abbrev main_v184 : Ref sig .tc := ⟨.hbm, 249, rfl⟩
abbrev main_cst_46 : Ref sig .tc := ⟨.hbm, 250, rfl⟩
abbrev main_call6_v0 : Ref sig .tc := ⟨.hbm, 251, rfl⟩
abbrev main_call6_v1 : Ref sig .tc := ⟨.hbm, 252, rfl⟩
abbrev main_v185 : Ref sig .tc := ⟨.hbm, 253, rfl⟩
abbrev main_cst_47 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_cst_48 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_cst_49 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_50 : Ref sig .tc := ⟨.hbm, 273, rfl⟩
abbrev main_v202 : Ref sig .tc := ⟨.hbm, 274, rfl⟩
abbrev main_v203 : Ref sig .tc := ⟨.hbm, 275, rfl⟩
abbrev main_cst_51 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_c_52 : Ref sig .tc := ⟨.hbm, 283, rfl⟩
abbrev main_v210 : Ref sig .tc := ⟨.hbm, 284, rfl⟩
abbrev main_v211 : Ref sig .tc := ⟨.hbm, 285, rfl⟩
abbrev main_cst_53 : Ref sig .tc := ⟨.hbm, 286, rfl⟩
abbrev main_call7_v0 : Ref sig .tc := ⟨.hbm, 287, rfl⟩
abbrev main_call7_v1 : Ref sig .tc := ⟨.hbm, 288, rfl⟩
abbrev main_v212 : Ref sig .tc := ⟨.hbm, 289, rfl⟩
abbrev main_cst_54 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩

abbrev nD : Nat := 1
abbrev τ : Topo := Topo.v7x

variable {F : FTy → Type} [FloatOps F]

class Facts₀ : Prop where
  shapeCasts_S2048x2x1024_S4096x1024 : S2048x2x1024.ShapeCasts S4096x1024
  bcast_S_S4096x1024 : S_.BroadcastsInDim S4096x1024 (![] : Fin 0 → Fin S4096x1024.rank)
  slices_S8x1024x4096_S1x1024x4096_0_0_0 : S8x1024x4096.Slices ![0, 0, 0] S1x1024x4096
  shapeCasts_S1x1024x4096_S1024x4096 : S1x1024x4096.ShapeCasts S1024x4096
  bcast_S_S4096x4096 : S_.BroadcastsInDim S4096x4096 (![] : Fin 0 → Fin S4096x4096.rank)
  slices_S8x4096x1024_S1x4096x1024_0_0_0 : S8x4096x1024.Slices ![0, 0, 0] S1x4096x1024
  shapeCasts_S1x4096x1024_S4096x1024 : S1x4096x1024.ShapeCasts S4096x1024
  bcast_S_S4096x2 : S_.BroadcastsInDim S4096x2 (![] : Fin 0 → Fin S4096x2.rank)
  reducesTo_S4096x2_S4096_d1 : S4096x2.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  slices_S8x1024x4096_S1x1024x4096_1_0_0 : S8x1024x4096.Slices ![1, 0, 0] S1x1024x4096
  slices_S8x4096x1024_S1x4096x1024_1_0_0 : S8x4096x1024.Slices ![1, 0, 0] S1x4096x1024
  slices_S8x1024x4096_S1x1024x4096_2_0_0 : S8x1024x4096.Slices ![2, 0, 0] S1x1024x4096
  slices_S8x4096x1024_S1x4096x1024_2_0_0 : S8x4096x1024.Slices ![2, 0, 0] S1x4096x1024
  slices_S8x1024x4096_S1x1024x4096_3_0_0 : S8x1024x4096.Slices ![3, 0, 0] S1x1024x4096
  slices_S8x4096x1024_S1x4096x1024_3_0_0 : S8x4096x1024.Slices ![3, 0, 0] S1x4096x1024
  slices_S8x1024x4096_S1x1024x4096_4_0_0 : S8x1024x4096.Slices ![4, 0, 0] S1x1024x4096
  slices_S8x4096x1024_S1x4096x1024_4_0_0 : S8x4096x1024.Slices ![4, 0, 0] S1x4096x1024
  slices_S8x1024x4096_S1x1024x4096_5_0_0 : S8x1024x4096.Slices ![5, 0, 0] S1x1024x4096
  slices_S8x4096x1024_S1x4096x1024_5_0_0 : S8x4096x1024.Slices ![5, 0, 0] S1x4096x1024
  slices_S8x1024x4096_S1x1024x4096_6_0_0 : S8x1024x4096.Slices ![6, 0, 0] S1x1024x4096
  slices_S8x4096x1024_S1x4096x1024_6_0_0 : S8x4096x1024.Slices ![6, 0, 0] S1x4096x1024
  slices_S8x1024x4096_S1x1024x4096_7_0_0 : S8x1024x4096.Slices ![7, 0, 0] S1x1024x4096
  slices_S8x4096x1024_S1x4096x1024_7_0_0 : S8x4096x1024.Slices ![7, 0, 0] S1x4096x1024
  shapeCasts_S4096x1024_S2048x2x1024 : S4096x1024.ShapeCasts S2048x2x1024
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  The mixture-of-experts layer as mathematics, free of any program: for a token row `r` and an output column `j`,

      y r j = Σ_e coef r e · Σ_F gelu (Σ_k x r k · w1 e k F) · w2 e F j,

  with the tanh form of gelu. Two ways of adding it up are stated here. One goes expert by expert over the whole
  hidden axis of 4096 (`rchain`). The other cuts the hidden axis into two halves of 2048 and adds sixteen pieces, two
  per expert (`kchain`). Over the extended reals the two agree once the weights, the tokens and the coefficients are
  real numbers: the only law needed beyond commutativity and associativity of the sum is
  `c · (a + b) = c · a + c · b`, which fails at infinities and holds for reals.
-/
import Idealize.ShloMosaic.PureOps.Ideal
import Idealize.ShloMosaic.PureOps.Ideal.Laws
import Idealize.ShloMosaic.Lib.ValueIdx

noncomputable section

namespace Cert.MoE

open Idealize.ShloMosaic

/-! ## Real-valued extended reals -/

/-- An extended real that is a real number. -/
def IsReal (x : EReal) : Prop := ∃ a : ℝ, x = (a : EReal)

theorem IsReal.coe (a : ℝ) : IsReal (a : EReal) := ⟨a, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal (0 : EReal) := ⟨0, EReal.coe_zero.symm⟩

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- For reals the product distributes over the sum (it does not at opposite infinities). -/
theorem IsReal.mul_add {c a b : EReal} (hc : IsReal c) (ha : IsReal a) (hb : IsReal b) : c * (a + b) = c * a + c * b := by
  obtain ⟨c, rfl⟩ := hc; obtain ⟨a, rfl⟩ := ha; obtain ⟨b, rfl⟩ := hb
  rw [← EReal.coe_add, ← EReal.coe_mul, ← EReal.coe_mul, ← EReal.coe_mul, ← EReal.coe_add, _root_.mul_add]

/-- The hyperbolic tangent of any extended real is a real number (its limits at the infinities are ±1). -/
theorem isReal_tanh (x : EReal) : IsReal (Ideal.tanh x) := by
  induction x using EReal.rec with
  | bot => exact ⟨-1, by rw [Ideal.tanh_bot]; norm_num⟩
  | coe a => exact ⟨Real.tanh a, Ideal.tanh_coe a⟩
  | top => exact ⟨1, by rw [Ideal.tanh_top]; norm_num⟩

/-- The f32 word of one half is the real 1/2, that of one the real 1, the zero word 0. -/
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem isReal_zeroWord : IsReal (Ideal.ofBits .f32 0x00000000#32) := by
  rw [Ideal.ofBits_zero_f32]; exact IsReal.zero

/-! ## The activation -/

/-- gelu in its tanh form, `h · (½ · (1 + tanh (b · (h + a · h³))))`, the cube grouped as `h · (h · h)`; the two
    constants `a` and `b` stay the f32 words both programs share. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The same with the cube grouped as `(h · h) · h`. -/
theorem gelu_cube (h : EReal) :
    h * (Ideal.ofBits .f32 0x3F000000#32 * (Ideal.ofBits .f32 0x3F800000#32
      + Ideal.tanh (Ideal.ofBits .f32 0x3F4C422A#32 * (h + Ideal.ofBits .f32 0x3D372713#32 * (h * h * h))))) = gelu h := by
  unfold gelu; rw [mul_comm (h * h) h]

theorem isReal_gelu {h : EReal} (hh : IsReal h) : IsReal (gelu h) := by
  unfold gelu
  refine hh.mul (IsReal.mul ?_ (IsReal.add ?_ (isReal_tanh _)))
  · rw [half_eq]; exact IsReal.coe _
  · rw [one_eq]; exact IsReal.coe _

/-! ## The layer, two ways -/

variable (xf : Fin 4096 → Fin 1024 → EReal) (w1 : Fin 8 → Fin 1024 → Fin 4096 → EReal)
  (w2 : Fin 8 → Fin 4096 → Fin 1024 → EReal) (cf : Fin 4096 → Fin 8 → EReal)

/-- Expert `e`'s hidden pre-activation of token `r` at hidden unit `F`. -/
def hid (e : Fin 8) (r : Fin 4096) (F : Fin 4096) : EReal := ∑ k : Fin 1024, xf r k * w1 e k F

/-- Hidden unit `f` of half `fi` of the hidden axis: `2048 · fi + f`. -/
def col (fi : Fin 2) (f : Fin 2048) : Fin 4096 := ⟨2048 * fi.val + f.val, by have := fi.isLt; have := f.isLt; omega⟩

/-- Expert `e`'s output over one half of the hidden axis. -/
def part (e : Fin 8) (fi : Fin 2) (r : Fin 4096) (j : Fin 1024) : EReal :=
  ∑ f : Fin 2048, gelu (hid xf w1 e r (col fi f)) * w2 e (col fi f) j

/-- Expert `e`'s output over the whole hidden axis. -/
def full (e : Fin 8) (r : Fin 4096) (j : Fin 1024) : EReal :=
  ∑ F : Fin 4096, gelu (hid xf w1 e r F) * w2 e F j

/-- Piece `n` of sixteen: expert `n / 2`, half `n % 2`. -/
def eOf (n : ℕ) : Fin 8 := ⟨n / 2 % 8, Nat.mod_lt _ (by decide)⟩
def fiOf (n : ℕ) : Fin 2 := ⟨n % 2, Nat.mod_lt _ (by decide)⟩

def term (r : Fin 4096) (j : Fin 1024) (n : ℕ) : EReal :=
  cf r (eOf n) * part xf w1 w2 (eOf n) (fiOf n) r j

/-- The zero word plus the first `n + 1` pieces. -/
def kchain (r : Fin 4096) (j : Fin 1024) (n : ℕ) : EReal :=
  Ideal.ofBits .f32 0x00000000#32 + ∑ s ∈ Finset.range (n + 1), term xf w1 w2 cf r j s

theorem kchain_zero (r : Fin 4096) (j : Fin 1024) :
    kchain xf w1 w2 cf r j 0 = Ideal.ofBits .f32 0x00000000#32 + term xf w1 w2 cf r j 0 := by
  unfold kchain; rw [Finset.sum_range_one]

theorem kchain_succ (r : Fin 4096) (j : Fin 1024) (n : ℕ) :
    kchain xf w1 w2 cf r j (n + 1) = kchain xf w1 w2 cf r j n + term xf w1 w2 cf r j (n + 1) := by
  unfold kchain; rw [Finset.sum_range_succ _ (n + 1), add_assoc]

/-- The zero word plus the first `n + 1` experts' whole outputs, each scaled by its coefficient. -/
def rterm (r : Fin 4096) (j : Fin 1024) (e : ℕ) : EReal :=
  cf r ⟨e % 8, Nat.mod_lt _ (by decide)⟩ * full xf w1 w2 ⟨e % 8, Nat.mod_lt _ (by decide)⟩ r j

def rchain (r : Fin 4096) (j : Fin 1024) (n : ℕ) : EReal :=
  Ideal.ofBits .f32 0x00000000#32 + ∑ e ∈ Finset.range (n + 1), rterm xf w1 w2 cf r j e

theorem rchain_zero (r : Fin 4096) (j : Fin 1024) :
    rchain xf w1 w2 cf r j 0 = Ideal.ofBits .f32 0x00000000#32 + rterm xf w1 w2 cf r j 0 := by
  unfold rchain; rw [Finset.sum_range_one]

theorem rchain_succ (r : Fin 4096) (j : Fin 1024) (n : ℕ) :
    rchain xf w1 w2 cf r j (n + 1) = rchain xf w1 w2 cf r j n + rterm xf w1 w2 cf r j (n + 1) := by
  unfold rchain; rw [Finset.sum_range_succ _ (n + 1), add_assoc]

/-! ## The four functions read off arrays -/

/-- The token matrix, the two weight tensors and the routing coefficients as functions of coordinates, read off
    arrays of the shapes the programs use. The coefficient of expert `e` for token `r` is the zero word plus, over the
    two routing slots, the slot's weight where the slot's expert index is `e` and the zero word elsewhere. -/
def xfOf (A : (⟨2, ![4096, 1024]⟩ : Shape).Idx → EReal) (r : Fin 4096) (k : Fin 1024) : EReal := A (ValueIdx.ix2 r k)
def w1Of (W : (⟨3, ![8, 1024, 4096]⟩ : Shape).Idx → EReal) (e : Fin 8) (k : Fin 1024) (F : Fin 4096) : EReal :=
  W (ValueIdx.ix3 e k F)
def w2Of (W : (⟨3, ![8, 4096, 1024]⟩ : Shape).Idx → EReal) (e : Fin 8) (F : Fin 4096) (j : Fin 1024) : EReal :=
  W (ValueIdx.ix3 e F j)
def cfOf (EW : (⟨2, ![4096, 2]⟩ : Shape).Idx → EReal) (EI : (⟨2, ![4096, 2]⟩ : Shape).Idx → BitVec 32)
    (r : Fin 4096) (e : Fin 8) : EReal :=
  Ideal.ofBits .f32 0x00000000#32 + ∑ k : Fin 2,
    Scalar.select (IntOp.cmpi .eq (EI (ValueIdx.ix2 r k)) (BitVec.ofNat 32 e.val)) (EW (ValueIdx.ix2 r k))
      (Ideal.ofBits .f32 0x00000000#32)

theorem isReal_cfOf (EW : (⟨2, ![4096, 2]⟩ : Shape).Idx → EReal) (EI : (⟨2, ![4096, 2]⟩ : Shape).Idx → BitVec 32)
    (h : ∀ i, IsReal (EW i)) (r : Fin 4096) (e : Fin 8) : IsReal (cfOf EW EI r e) := by
  unfold cfOf
  refine isReal_zeroWord.add (IsReal.sum _ _ fun k _ => ?_)
  unfold Scalar.select
  split
  · exact h _
  · exact isReal_zeroWord

/-! ## The two sums agree on reals -/

/-- A sum over the hidden axis is the sum over its first half plus the sum over its second half. -/
theorem sum_halves (g : Fin 4096 → EReal) :
    ∑ F : Fin 4096, g F = ∑ f : Fin 2048, g (col 0 f) + ∑ f : Fin 2048, g (col 1 f) := by
  have h := Fin.sum_univ_add (M := EReal) (a := 2048) (b := 2048) g
  exact h

theorem full_eq_parts (e : Fin 8) (r : Fin 4096) (j : Fin 1024) :
    full xf w1 w2 e r j = part xf w1 w2 e 0 r j + part xf w1 w2 e 1 r j := by
  unfold full part; exact sum_halves _

/-- A sum of `2 n` terms taken in consecutive pairs. -/
theorem sum_range_pairs (f : ℕ → EReal) (n : ℕ) :
    ∑ s ∈ Finset.range (2 * n), f s = ∑ e ∈ Finset.range n, (f (2 * e) + f (2 * e + 1)) := by
  induction n with
  | zero => rfl
  | succ n ih =>
    rw [show 2 * (n + 1) = 2 * n + 1 + 1 from by ring, Finset.sum_range_succ, Finset.sum_range_succ, ih,
      Finset.sum_range_succ, add_assoc]

variable (hx : ∀ r k, IsReal (xf r k)) (hw1 : ∀ e k F, IsReal (w1 e k F)) (hw2 : ∀ e F j, IsReal (w2 e F j))
  (hcf : ∀ r e, IsReal (cf r e))

include hx hw1 hw2 in
theorem isReal_part (e : Fin 8) (fi : Fin 2) (r : Fin 4096) (j : Fin 1024) : IsReal (part xf w1 w2 e fi r j) := by
  unfold part
  refine IsReal.sum _ _ fun f _ => (isReal_gelu ?_).mul (hw2 _ _ _)
  unfold hid
  exact IsReal.sum _ _ fun k _ => (hx _ _).mul (hw1 _ _ _)

include hx hw1 hw2 hcf in
/-- Two consecutive pieces are one expert's whole output, scaled. -/
theorem pair_eq (r : Fin 4096) (j : Fin 1024) (e : ℕ) :
    term xf w1 w2 cf r j (2 * e) + term xf w1 w2 cf r j (2 * e + 1) = rterm xf w1 w2 cf r j e := by
  have e0 : eOf (2 * e) = ⟨e % 8, Nat.mod_lt _ (by decide)⟩ := Fin.ext (by show 2 * e / 2 % 8 = e % 8; omega)
  have e1 : eOf (2 * e + 1) = ⟨e % 8, Nat.mod_lt _ (by decide)⟩ := Fin.ext (by show (2 * e + 1) / 2 % 8 = e % 8; omega)
  have f0 : fiOf (2 * e) = 0 := Fin.ext (by show 2 * e % 2 = 0; omega)
  have f1 : fiOf (2 * e + 1) = 1 := Fin.ext (by show (2 * e + 1) % 2 = 1; omega)
  unfold term rterm
  rw [e0, e1, f0, f1, full_eq_parts]
  exact ((hcf _ _).mul_add (isReal_part xf w1 w2 hx hw1 hw2 _ _ _ _) (isReal_part xf w1 w2 hx hw1 hw2 _ _ _ _)).symm

include hx hw1 hw2 hcf in
/-- Sixteen half-axis pieces add up to eight whole-axis outputs. -/
theorem kchain_eq_rchain (r : Fin 4096) (j : Fin 1024) :
    kchain xf w1 w2 cf r j 15 = rchain xf w1 w2 cf r j 7 := by
  unfold kchain rchain
  rw [show 15 + 1 = 2 * 8 from rfl, sum_range_pairs]
  exact congrArg _ (Finset.sum_congr rfl fun e _ => pair_eq xf w1 w2 cf hx hw1 hw2 hcf r j e)

end Cert.MoE

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KPay.lean ====
/-
  What one grid point of the kernel computes, entry by entry, over the extended reals.

  At a point the body holds a 512-row block of tokens `x0`, a [1024, 2048] slab of one expert's first weight `x1`, the
  matching [2048, 1024] slab of its second weight `x2`, the block's routing coefficients `x3` (one lane per expert) and
  the running block `xs`. It leaves, at row `p` and column `j`,

      xs p j + x3 p e · Σ_f gelu (Σ_k x0 p k · x1 k f) · x2 f j,

  where `e` is the point's expert coordinate: the lane sum over the eight experts of the coefficients masked to lane
  `e` is the one coefficient of that lane, a matrix product into a zero accumulator is the plain sum of products, a
  change of float format is the identity, and every other operation acts entry by entry.
-/
import proofs.«131107_j70480413328102_1_alg».proof.Proof.Gen.KernelIdeal.Skeleton
import proofs.«131107_j70480413328102_1_alg».proof.Proof.Spec
import proofs.«131107_j70480413328102_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.MoE.Kernel

open Cert.KernelIdeal Cert.KernelIdeal.Gen Idealize.ShloMosaic Idealize.ShloMosaic.ValueIdx

/-- The two contractions of the body: tokens against the first weight slab, activations against the second. -/
abbrev D1 : DotDims S512x1024 S1024x2048 S512x2048 := dot_S512x1024_S1024x2048_S512x2048_1_0_0_1_n_n
abbrev D2 : DotDims S512x2048 S2048x1024 S512x1024 := dot_S512x2048_S2048x1024_S512x1024_1_0_0_1_n_n

theorem D1_lhs0 (i : S512x2048.Idx) (q : D1.contr.Idx) : (D1.lhsIdx i q 0).val = (i 0).val := by
  unfold DotDims.lhsIdx
  rw [dif_neg (show ¬(0 : Fin S512x1024.rank) ∈ D1.lhsBatch by decide), dif_pos (show (0 : Fin S512x1024.rank) ∈ D1.lhsNonContracting by decide)]
  rfl
theorem D1_rhs1 (i : S512x2048.Idx) (q : D1.contr.Idx) : (D1.rhsIdx i q 1).val = (i 1).val := by
  unfold DotDims.rhsIdx
  rw [dif_neg (show ¬(1 : Fin S1024x2048.rank) ∈ D1.rhsBatch by decide), dif_pos (show (1 : Fin S1024x2048.rank) ∈ D1.rhsNonContracting by decide)]
  rfl
theorem D2_lhs0 (i : S512x1024.Idx) (q : D2.contr.Idx) : (D2.lhsIdx i q 0).val = (i 0).val := by
  unfold DotDims.lhsIdx
  rw [dif_neg (show ¬(0 : Fin S512x2048.rank) ∈ D2.lhsBatch by decide), dif_pos (show (0 : Fin S512x2048.rank) ∈ D2.lhsNonContracting by decide)]
  rfl
theorem D2_rhs1 (i : S512x1024.Idx) (q : D2.contr.Idx) : (D2.rhsIdx i q 1).val = (i 1).val := by
  unfold DotDims.rhsIdx
  rw [dif_neg (show ¬(1 : Fin S2048x1024.rank) ∈ D2.rhsBatch by decide), dif_pos (show (1 : Fin S2048x1024.rank) ∈ D2.rhsNonContracting by decide)]
  rfl

/-- The first product into a zero accumulator, at row `p` and hidden unit `f`: the sum over the 1024 features. -/
theorem mm1_apply (a : FVec Ideal S512x1024 .bf16) (b : FVec Ideal S1024x2048 .bf16) (p : Fin 512) (f : Fin 2048) :
    matmul D1 none a b (constant (F := Ideal) S512x2048 .f32 0x00000000#32) (ix2 p f)
      = ∑ k : Fin 1024, a (ix2 p k) * b (ix2 k f) := by
  refine (Ideal.matmul_constant_zero_apply D1 none a b (ix2 p f)).trans ?_
  rw [← Equiv.sum_comp (contrEquiv1 D1 1024 rfl rfl).symm]
  refine Finset.sum_congr rfl fun k _ => ?_
  have hk := contrEquiv1_symm_val D1 1024 rfl rfl k
  have el : D1.lhsIdx (ix2 p f) ((contrEquiv1 D1 1024 rfl rfl).symm k) = ix2 p k := funext fun ax => Fin.ext (by
    match ax with
    | ⟨0, _⟩ => exact D1_lhs0 _ _
    | ⟨1, _⟩ => exact (D1.lhsIdx_val_of_single rfl _ _).trans hk)
  have er : D1.rhsIdx (ix2 p f) ((contrEquiv1 D1 1024 rfl rfl).symm k) = ix2 k f := funext fun ax => Fin.ext (by
    match ax with
    | ⟨0, _⟩ => exact (D1.rhsIdx_val_of_single rfl _ _).trans hk
    | ⟨1, _⟩ => exact D1_rhs1 _ _)
  rw [el, er]

/-- The second product into a zero accumulator, at row `p` and column `j`: the sum over the slab's 2048 hidden units. -/
theorem mm2_apply (a : FVec Ideal S512x2048 .bf16) (b : FVec Ideal S2048x1024 .bf16) (p : Fin 512) (j : Fin 1024) :
    matmul D2 none a b (constant (F := Ideal) S512x1024 .f32 0x00000000#32) (ix2 p j)
      = ∑ f : Fin 2048, a (ix2 p f) * b (ix2 f j) := by
  refine (Ideal.matmul_constant_zero_apply D2 none a b (ix2 p j)).trans ?_
  rw [← Equiv.sum_comp (contrEquiv1 D2 2048 rfl rfl).symm]
  refine Finset.sum_congr rfl fun k _ => ?_
  have hk := contrEquiv1_symm_val D2 2048 rfl rfl k
  have el : D2.lhsIdx (ix2 p j) ((contrEquiv1 D2 2048 rfl rfl).symm k) = ix2 p k := funext fun ax => Fin.ext (by
    match ax with
    | ⟨0, _⟩ => exact D2_lhs0 _ _
    | ⟨1, _⟩ => exact (D2.lhsIdx_val_of_single rfl _ _).trans hk)
  have er : D2.rhsIdx (ix2 p j) ((contrEquiv1 D2 2048 rfl rfl).symm k) = ix2 k j := funext fun ax => Fin.ext (by
    match ax with
    | ⟨0, _⟩ => exact (D2.rhsIdx_val_of_single rfl _ _).trans hk
    | ⟨1, _⟩ => exact D2_rhs1 _ _)
  rw [el, er]

/-- The hidden pre-activation of row `p` at the slab's hidden unit `f`. -/
theorem hidden_apply (x0 : FVec Ideal S512x1024 .bf16) (x1 : FVec Ideal S1x1024x2048 .bf16) (p : Fin 512) (f : Fin 2048) :
    matmul D1 none (shapeCast S512x1024 x0 Facts₀.shapeCasts_S512x1024_S512x1024)
        (shapeCast S1024x2048 x1 Facts₀.shapeCasts_S1x1024x2048_S1024x2048)
        (constant (F := Ideal) S512x2048 .f32 0x00000000#32) (ix2 p f)
      = ∑ k : Fin 1024, x0 (ix2 p k) * x1 (ix3 (0 : Fin 1) k f) := by
  rw [mm1_apply]
  refine Finset.sum_congr rfl fun k _ => ?_
  rw [shapeCast_self, shapeCast_1ab_ab_apply]

/-- One expert slab's contribution to row `p`, column `j`: activations of the slab's hidden units against its second
    weight. -/
theorem pay3_apply (x0 : FVec Ideal S512x1024 .bf16) (x1 : FVec Ideal S1x1024x2048 .bf16) (x2 : FVec Ideal S1x2048x1024 .bf16)
    (p : Fin 512) (j : Fin 1024) :
    k0_pay3 (F := Ideal) x0 x1 x2 (ix2 p j)
      = ∑ f : Fin 2048, gelu (∑ k : Fin 1024, x0 (ix2 p k) * x1 (ix3 (0 : Fin 1) k f)) * x2 (ix3 (0 : Fin 1) f j) := by
  unfold k0_pay3
  refine (mm2_apply _ _ p j).trans ?_
  refine Finset.sum_congr rfl fun f _ => ?_
  rw [shapeCast_1ab_ab_apply, ← hidden_apply x0 x1 p f]
  rfl

/-- Two lane numbers below eight are equal as 32-bit words only when they are equal. -/
theorem lane_select (k e : ℕ) (hk : k < 8) (he : e < 8) (a b : EReal) :
    Scalar.select (IntOp.cmpi .eq (BitVec.ofNat 32 k) (BitVec.ofNat 32 e)) a b = if k = e then a else b := by
  unfold Scalar.select IntOp.cmpi
  show (if BitVec.ofBool (BitVec.ofNat 32 k == BitVec.ofNat 32 e) = 1#1 then a else b) = _
  by_cases h : k = e
  · subst h
    rw [beq_self_eq_true, if_pos rfl]
    exact if_pos (by decide)
  · have hne : BitVec.ofNat 32 k ≠ BitVec.ofNat 32 e := fun h' => h (by
      have := congrArg BitVec.toNat h'
      simp only [BitVec.toNat_ofNat] at this
      omega)
    rw [beq_eq_false_iff_ne.mpr hne, if_neg h]
    exact if_neg (by decide)

/-- The coefficient the body selects: the lane sum of the block's coefficients masked to the point's expert lane is
    that lane's coefficient. -/
theorem pay4_apply (i : grid0.Coords) (x3 : FVec Ideal S512x8 .f32) (p : Fin 512) (e : Fin 8) (he : (i 1).val = e.val) :
    k0_pay4 (F := Ideal) i x3 (ix1 p) = x3 (ix2 p e) := by
  unfold k0_pay4
  refine (Ideal.multiReduction_add_single _ 0x00000000#32 Facts₀.reduces_S512x8_S512 (.inl rfl) rfl (ix1 p)).trans ?_
  show ∑ k : Fin 8, _ = _
  have hidx : ∀ k : Fin 8, Shape.Reduces.lift Facts₀.reduces_S512x8_S512 (ix1 p) k = ix2 p k := fun k =>
    funext fun a => Fin.ext (by match a with | ⟨0, _⟩ => rfl | ⟨1, _⟩ => rfl)
  rw [Finset.sum_eq_single e]
  · rw [shapeCast_self, hidx]
    show Scalar.select (IntOp.cmpi .eq (iota .tc S512x8 32 [1] Facts₀.iota_S512x8_d1_w32 (ix2 p e)) (BitVec.ofNat 32 (i 1).val)) (x3 (ix2 p e)) _ = _
    rw [iota_single_apply, he]
    show Scalar.select (IntOp.cmpi .eq (BitVec.ofNat 32 e.val) (BitVec.ofNat 32 e.val)) _ _ = _
    rw [lane_select _ _ e.isLt e.isLt, if_pos rfl]
  · intro k _ hk
    rw [shapeCast_self, hidx]
    show Scalar.select (IntOp.cmpi .eq (iota .tc S512x8 32 [1] Facts₀.iota_S512x8_d1_w32 (ix2 p k)) (BitVec.ofNat 32 (i 1).val)) (x3 (ix2 p k)) (Ideal.ofBits .f32 0x00000000#32) = 0
    rw [iota_single_apply, he]
    show Scalar.select (IntOp.cmpi .eq (BitVec.ofNat 32 k.val) (BitVec.ofNat 32 e.val)) _ _ = _
    rw [lane_select _ _ k.isLt e.isLt, if_neg (fun h => hk (Fin.ext h)), Ideal.ofBits_zero_f32]
  · intro h; exact absurd (Finset.mem_univ e) h

/-- The running block after the point, at row `p` and column `j`. -/
theorem pay1_apply (v26 : FVec Ideal S512x1024 .f32) (v34 : FVec Ideal S512 .f32) (v36 : FVec Ideal S512x1024 .f32)
    (p : Fin 512) (j : Fin 1024) :
    k0_pay1 (F := Ideal) v26 v34 v36 (ix2 p j) = v36 (ix2 p j) + v34 (ix1 p) * v26 (ix2 p j) := by
  unfold k0_pay1
  rw [shapeCast_self]
  show v36 (ix2 p j) + broadcastTo S512x1024 (shapeCast S512x1 v34 Facts₀.shapeCasts_S512_S512x1) Facts₀.broadcasts_S512x1_S512x1024 (ix2 p j) * v26 (ix2 p j) = _
  rw [Cert.LibLayout.broadcastTo_a1_ab_apply, Cert.LibLayout.shapeCast_a_a1_apply]

/-- The block the first point of an output block's sweep starts from: the zero word everywhere. -/
theorem pay2_apply (y : S512x1024.Idx) : k0_pay2 (F := Ideal) y = Ideal.ofBits .f32 0x00000000#32 := by
  unfold k0_pay2
  rw [shapeCast_self]
  rfl

/-- One point's whole step. -/
theorem step_apply (i : grid0.Coords) (x0 : FVec Ideal S512x1024 .bf16) (x1 : FVec Ideal S1x1024x2048 .bf16)
    (x2 : FVec Ideal S1x2048x1024 .bf16) (x3 : FVec Ideal S512x8 .f32) (xs : FVec Ideal S512x1024 .f32)
    (p : Fin 512) (j : Fin 1024) (e : Fin 8) (he : (i 1).val = e.val) :
    k0_pay1 (F := Ideal) (k0_pay3 x0 x1 x2) (k0_pay4 i x3) xs (ix2 p j)
      = xs (ix2 p j) + x3 (ix2 p e)
          * ∑ f : Fin 2048, gelu (∑ k : Fin 1024, x0 (ix2 p k) * x1 (ix3 (0 : Fin 1) k f)) * x2 (ix3 (0 : Fin 1) f j) := by
  rw [pay1_apply, pay4_apply i x3 p e he, pay3_apply]

end Cert.MoE.Kernel

end
-- ==== Proof.KPiece.lean ====
/-
  What each of the body's three control cases leaves behind, as values.

  At the first point of an output block's sweep the body zeroes the running block, then adds the point's contribution
  to it; at every later point it adds the contribution to what the point before left; at the last point of the sweep
  it also copies the running block to the output block. Each store covers its whole buffer, so what a buffer holds
  afterwards is the stored value itself.
-/
import proofs.«131107_j70480413328102_1_alg».proof.Proof.Gen.KernelIdeal.Frame
import Idealize.ShloMosaic.Lib.Pipeline.Value
import Idealize.ShloMosaic.Lib.Tactic

noncomputable section

namespace Cert.MoE.Kernel

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a sweep: the zero block plus the point's contribution. -/
theorem sout_A (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x2048x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .bf16) (x1 : Vec F S1x1024x2048 .bf16) (x2 : Vec F S1x2048x1024 .bf16) (x3 : Vec F S512x8 .f32) :
    sout0_A_0 c i arg3 harg3 arg4 harg4 arg5 harg5 arg6 harg6 arg7 harg7 arg8 harg8 hc0 hc1 x0 x1 x2 x3 = k0_pay1 (k0_pay3 x0 x1 x2) (k0_pay4 i x3) (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread,
    View.ld_unit_zero (S := S512x1024) hz2, View.ld_unit_zero (S := S1x1024x2048) hz3,
    View.ld_unit_zero (S := S1x2048x1024) hz3, View.ld_unit_zero (S := S512x8) hz2]

/-- A middle point: what the point before left plus the point's contribution. -/
theorem sout_B (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x2048x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .bf16) (x1 : Vec F S1x1024x2048 .bf16) (x2 : Vec F S1x2048x1024 .bf16) (x3 : Vec F S512x8 .f32) (xs0 : Vec F S512x1024 .f32) :
    sout0_B_0 c i arg3 harg3 arg4 harg4 arg5 harg5 arg6 harg6 arg7 harg7 arg8 harg8 hc0 hc1 x0 x1 x2 x3 xs0 = k0_pay1 (k0_pay3 x0 x1 x2) (k0_pay4 i x3) xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread,
    harg8.read_unread, View.ld_unit_zero (S := S512x1024) hz2, View.ld_unit_zero (S := S1x1024x2048) hz3,
    View.ld_unit_zero (S := S1x2048x1024) hz3, View.ld_unit_zero (S := S512x8) hz2]

/-- Last point of a sweep: the running block as at a middle point, -/
theorem sout_C (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x2048x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .bf16) (x1 : Vec F S1x1024x2048 .bf16) (x2 : Vec F S1x2048x1024 .bf16) (x3 : Vec F S512x8 .f32) (xs0 : Vec F S512x1024 .f32) :
    sout0_C_0 c i arg3 harg3 arg4 harg4 arg5 harg5 arg6 harg6 arg7 harg7 arg8 harg8 hc0 hc1 x0 x1 x2 x3 xs0 = k0_pay1 (k0_pay3 x0 x1 x2) (k0_pay4 i x3) xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread,
    harg8.read_unread, View.ld_unit_zero (S := S512x1024) hz2, View.ld_unit_zero (S := S1x1024x2048) hz3,
    View.ld_unit_zero (S := S1x2048x1024) hz3, View.ld_unit_zero (S := S512x8) hz2]

/-- and the output block a copy of it. -/
theorem out_C (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x2048x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .bf16) (x1 : Vec F S1x1024x2048 .bf16) (x2 : Vec F S1x2048x1024 .bf16) (x3 : Vec F S512x8 .f32) (xs0 : Vec F S512x1024 .f32) :
    out0_C_4 c i arg3 harg3 arg4 harg4 arg5 harg5 arg6 harg6 arg7 harg7 arg8 harg8 hc0 hc1 x0 x1 x2 x3 xs0 = k0_pay1 (k0_pay3 x0 x1 x2) (k0_pay4 i x3) xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S512x1024) _ hz2]
  simp only [View.readAt_eq_ld, harg3.read_unread, harg4.read_unread, harg5.read_unread, harg6.read_unread,
    harg8.read_unread, View.ld_unit_zero (S := S512x1024) hz2, View.ld_unit_zero (S := S1x1024x2048) hz3,
    View.ld_unit_zero (S := S1x2048x1024) hz3, View.ld_unit_zero (S := S512x8) hz2]

end Cert.MoE.Kernel

end
-- ==== Proof.KBlocks.lean ====
/-
  Which entries of the arrays a grid point's blocks are.

  Point `t` of the 8 × 8 × 2 grid (token block `t / 16`, expert `t / 2 % 8`, hidden half `t % 2`) reads rows
  `512 · (t / 16) + p` of the token matrix and of the coefficient matrix, and of expert `t / 2 % 8`'s two weights the
  hidden units `2048 · (t % 2) + f`: a block's entry sits at block index × block extent + the coordinate inside.
-/
import proofs.«131107_j70480413328102_1_alg».proof.Proof.Gen.KernelIdeal.Frame
import Idealize.ShloMosaic.Lib.Pipeline.Value
import Idealize.ShloMosaic.Lib.ValueIdx

noncomputable section

namespace Cert.MoE.Kernel

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The windows' block indices and the expert coordinate at every grid point. -/
theorem idx_facts : ∀ t : Fin cfg0.N,
    win0_0.index t (0 : Fin 2) = t.val / 16 ∧ win0_0.index t (1 : Fin 2) = 0
    ∧ win0_1.index t (0 : Fin 3) = t.val / 2 % 8 ∧ win0_1.index t (1 : Fin 3) = 0 ∧ win0_1.index t (2 : Fin 3) = t.val % 2
    ∧ win0_2.index t (0 : Fin 3) = t.val / 2 % 8 ∧ win0_2.index t (1 : Fin 3) = t.val % 2 ∧ win0_2.index t (2 : Fin 3) = 0
    ∧ win0_3.index t (0 : Fin 2) = t.val / 16 ∧ win0_3.index t (1 : Fin 2) = 0
    ∧ win0_4.index t (0 : Fin 2) = t.val / 16 ∧ win0_4.index t (1 : Fin 2) = 0
    ∧ (grid0.coords t 1).val = t.val / 2 % 8 :=
  (by decide +kernel : ∀ t : Fin grid0.N, _)

/-- The token block at a point: rows `512 · (t / 16) + p` of the token matrix. -/
theorem iblk0_apply (c : Dev nD) (t : Fin cfg0.N) (p : Fin 512) (k : Fin 1024) (r : Fin 4096)
    (hr : r.val = 512 * (t.val / 16) + p.val) :
    (iblk m c 0 t : Vec F S512x1024 .bf16) (ix2 p k) = V m c main_v10 (ix2 r k) := by
  obtain ⟨e0, e1, -⟩ := idx_facts t
  unfold iblk
  rw [View.read_apply]
  show V m c main_v10 _ = V m c main_v10 _
  refine congrArg (V m c main_v10) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The first weight's slab at a point: expert `t / 2 % 8`, hidden units `2048 · (t % 2) + f`. -/
theorem iblk1_apply (c : Dev nD) (t : Fin cfg0.N) (k : Fin 1024) (f : Fin 2048) (e : Fin 8) (Fh : Fin 4096)
    (he : e.val = t.val / 2 % 8) (hF : Fh.val = 2048 * (t.val % 2) + f.val) :
    (iblk m c 1 t : Vec F S1x1024x2048 .bf16) (ix3 (0 : Fin 1) k f) = V m c main_v11 (ix3 e k Fh) := by
  obtain ⟨-, -, e0, e1, e2, -⟩ := idx_facts t
  unfold iblk
  rw [View.read_apply]
  show V m c main_v11 _ = V m c main_v11 _
  refine congrArg (V m c main_v11) (funext fun a => Fin.ext ?_)
  match a with
  | ⟨0, _⟩ => show win0_1.index t (0 : Fin 3) * 1 + 1 * 0 = e.val; rw [e0, he]; omega
  | ⟨1, _⟩ => show win0_1.index t (1 : Fin 3) * 1024 + 1 * k.val = k.val; rw [e1]; omega
  | ⟨2, _⟩ => show win0_1.index t (2 : Fin 3) * 2048 + 1 * f.val = Fh.val; rw [e2, hF]; omega

/-- The second weight's slab at a point. -/
theorem iblk2_apply (c : Dev nD) (t : Fin cfg0.N) (f : Fin 2048) (j : Fin 1024) (e : Fin 8) (Fh : Fin 4096)
    (he : e.val = t.val / 2 % 8) (hF : Fh.val = 2048 * (t.val % 2) + f.val) :
    (iblk m c 2 t : Vec F S1x2048x1024 .bf16) (ix3 (0 : Fin 1) f j) = V m c main_v12 (ix3 e Fh j) := by
  obtain ⟨-, -, -, -, -, e0, e1, e2, -⟩ := idx_facts t
  unfold iblk
  rw [View.read_apply]
  show V m c main_v12 _ = V m c main_v12 _
  refine congrArg (V m c main_v12) (funext fun a => Fin.ext ?_)
  match a with
  | ⟨0, _⟩ => show win0_2.index t (0 : Fin 3) * 1 + 1 * 0 = e.val; rw [e0, he]; omega
  | ⟨1, _⟩ => show win0_2.index t (1 : Fin 3) * 2048 + 1 * f.val = Fh.val; rw [e1, hF]; omega
  | ⟨2, _⟩ => show win0_2.index t (2 : Fin 3) * 1024 + 1 * j.val = j.val; rw [e2]; omega

/-- The coefficient block at a point: rows `512 · (t / 16) + p` of the coefficient matrix, all eight lanes. -/
theorem iblk3_apply (c : Dev nD) (t : Fin cfg0.N) (p : Fin 512) (l : Fin 8) (r : Fin 4096)
    (hr : r.val = 512 * (t.val / 16) + p.val) :
    (iblk m c 3 t : Vec F S512x8 .f32) (ix2 p l) = V m c main_v9 (ix2 r l) := by
  obtain ⟨-, -, -, -, -, -, -, -, e0, e1, -⟩ := idx_facts t
  unfold iblk
  rw [View.read_apply]
  show V m c main_v9 _ = V m c main_v9 _
  refine congrArg (V m c main_v9) (funext fun a => Fin.ext ?_)
  match a with
  | ⟨0, _⟩ => show win0_3.index t (0 : Fin 2) * 512 + 1 * p.val = r.val; rw [e0, hr]; omega
  | ⟨1, _⟩ => show win0_3.index t (1 : Fin 2) * 8 + 1 * l.val = l.val; rw [e1]; omega

end Cert.MoE.Kernel

end
-- ==== Proof.KChain.lean ====
/-
  The running block over a sweep of sixteen points, and the block written back at its end.

  The grid visits, for each block of 512 token rows, the eight experts in order and for each expert the two halves of
  its hidden axis: sixteen points, numbered `t % 16`. By induction on the point, after point `t` the running block
  holds at row `p`, column `j` the zero word plus the first `t % 16 + 1` pieces of token row `512 · (t / 16) + p`
  (Spec's `kchain`); the last point of the sweep copies that to the output block.
-/
import proofs.«131107_j70480413328102_1_alg».proof.Proof.KPay
import proofs.«131107_j70480413328102_1_alg».proof.Proof.KPiece
import proofs.«131107_j70480413328102_1_alg».proof.Proof.KBlocks

noncomputable section

namespace Cert.MoE.Kernel

open Cert.KernelIdeal Cert.KernelIdeal.Gen Idealize.ShloMosaic Idealize.ShloMosaic.TcCoe Idealize.SL.Sem
open Idealize.ShloMosaic.ValueIdx Cert.MoE

variable (m : (ℓ : Loc nD τ sig) → Buf (Elt Ideal) ℓ)

/-- The layer's four functions read off the arrays the launch finds. -/
def xfK (c : Dev nD) : Fin 4096 → Fin 1024 → EReal := xfOf (V m c main_v10 : S4096x1024.Idx → EReal)
def w1K (c : Dev nD) : Fin 8 → Fin 1024 → Fin 4096 → EReal := w1Of (V m c main_v11 : S8x1024x4096.Idx → EReal)
def w2K (c : Dev nD) : Fin 8 → Fin 4096 → Fin 1024 → EReal := w2Of (V m c main_v12 : S8x4096x1024.Idx → EReal)
def cfK (c : Dev nD) : Fin 4096 → Fin 8 → EReal := fun r e => (V m c main_v9 : S4096x8.Idx → EReal) (ix2 r e)

/-- One point adds its piece: at point `t` the body turns a running block `xs` into `xs` plus piece `t % 16` of the
    token row the block's row `p` is. -/
theorem point_eq (c : Dev nD) (t : Fin cfg0.N) (xs : FVec Ideal S512x1024 .f32) (p : Fin 512) (j : Fin 1024) (r : Fin 4096)
    (hr : r.val = 512 * (t.val / 16) + p.val) :
    k0_pay1 (F := Ideal) (k0_pay3 (iblk m c 0 t) (iblk m c 1 t) (iblk m c 2 t)) (k0_pay4 (grid0.coords t) (iblk m c 3 t)) xs (ix2 p j)
      = xs (ix2 p j) + term (xfK m c) (w1K m c) (w2K m c) (cfK m c) r j (t.val % 16) := by
  have hg : (grid0.coords t 1).val = t.val / 2 % 8 := (idx_facts t).2.2.2.2.2.2.2.2.2.2.2.2
  have he' : (eOf (t.val % 16)).val = t.val / 2 % 8 := by show t.val % 16 / 2 % 8 = t.val / 2 % 8; omega
  have he : (grid0.coords t 1).val = (eOf (t.val % 16)).val := hg.trans he'.symm
  have hF : ∀ f : Fin 2048, (col (fiOf (t.val % 16)) f).val = 2048 * (t.val % 2) + f.val := fun f => by
    show 2048 * (t.val % 16 % 2) + f.val = 2048 * (t.val % 2) + f.val; omega
  refine (step_apply (grid0.coords t) (iblk m c 0 t) (iblk m c 1 t) (iblk m c 2 t) (iblk m c 3 t) xs p j (eOf (t.val % 16)) he).trans ?_
  refine congrArg (xs (ix2 p j) + ·) ?_
  unfold term part hid
  rw [iblk3_apply m c t p (eOf (t.val % 16)) r hr]
  refine congrArg₂ (· * ·) rfl (Finset.sum_congr rfl fun f _ => ?_)
  rw [iblk2_apply m c t f j (eOf (t.val % 16)) (col (fiOf (t.val % 16)) f) he' (hF f)]
  refine congrArg₂ (· * ·) (congrArg gelu (Finset.sum_congr rfl fun k _ => ?_)) rfl
  rw [iblk0_apply m c t p k r hr, iblk1_apply m c t k f (eOf (t.val % 16)) (col (fiOf (t.val % 16)) f) he' (hF f)]
  rfl

/-- THE RUNNING BLOCK after point `n`, entry by entry. -/
theorem scratch_eq (c : Dev nD) (n : ℕ) : ∀ (hn : n < cfg0.N) (p : Fin 512) (j : Fin 1024) (r : Fin 4096),
    r.val = 512 * (n / 16) + p.val →
    (outsAt0 m c n hn).2 (ix2 p j) = kchain (xfK m c) (w1K m c) (w2K m c) (cfK m c) r j (n % 16) := by
  induction n with
  | zero =>
    intro hn p j r hr
    rw [outsAt0_A m c ⟨0, hn⟩ rfl (by show ¬(0 : ℕ) % 16 = 15; decide)]
    dsimp only
    rw [sout_A, point_eq m c ⟨0, hn⟩ _ p j r hr, pay2_apply]
    exact (kchain_zero _ _ _ _ r j).symm
  | succ n ih =>
    intro hn p j r hr
    have hN : n + 1 < 128 := lt_of_lt_of_eq hn (show cfg0.N = 128 from N_0)
    by_cases h0 : (n + 1) % 16 = 0
    · rw [outsAt0_A m c ⟨n + 1, hn⟩ h0 (by dsimp only; omega)]
      dsimp only
      rw [sout_A, point_eq m c ⟨n + 1, hn⟩ _ p j r hr, pay2_apply]
      show _ + term _ _ _ _ r j ((n + 1) % 16) = kchain _ _ _ _ r j ((n + 1) % 16)
      rw [h0]
      exact (kchain_zero _ _ _ _ r j).symm
    · have hprev := ih (Nat.lt_of_succ_lt hn) p j r (by omega)
      have hs : (n + 1) % 16 = n % 16 + 1 := by omega
      by_cases h1 : (n + 1) % 16 = 15
      · rw [outsAt0_C m c ⟨n + 1, hn⟩ h0 h1]
        dsimp only
        rw [sout_C, point_eq m c ⟨n + 1, hn⟩ _ p j r hr]
        show (outsAt0 m c n _).2 (ix2 p j) + term _ _ _ _ r j ((n + 1) % 16) = kchain _ _ _ _ r j ((n + 1) % 16)
        rw [hprev, hs]
        exact (kchain_succ _ _ _ _ r j (n % 16)).symm
      · rw [outsAt0_B m c ⟨n + 1, hn⟩ h0 h1]
        dsimp only
        rw [sout_B, point_eq m c ⟨n + 1, hn⟩ _ p j r hr]
        show (outsAt0 m c n _).2 (ix2 p j) + term _ _ _ _ r j ((n + 1) % 16) = kchain _ _ _ _ r j ((n + 1) % 16)
        rw [hprev, hs]
        exact (kchain_succ _ _ _ _ r j (n % 16)).symm

/-- THE BLOCK WRITTEN BACK at the last point of a sweep: all sixteen pieces. -/
theorem out_eq (c : Dev nD) (t : Fin cfg0.N) (h1 : t.val % 16 = 15) (p : Fin 512) (j : Fin 1024) (r : Fin 4096)
    (hr : r.val = 512 * (t.val / 16) + p.val) :
    (outsAt0 m c t.val t.isLt).1 (ix2 p j) = kchain (xfK m c) (w1K m c) (w2K m c) (cfK m c) r j 15 := by
  have h0 : ¬t.val % 16 = 0 := by omega
  have hN : t.val < 128 := lt_of_lt_of_eq t.isLt (show cfg0.N = 128 from N_0)
  rw [outsAt0_C m c t h0 h1]
  dsimp only
  rw [out_C, point_eq m c t _ p j r hr, scratch_eq m c (t.val - 1) _ p j r (by omega), h1,
    show (t.val - 1) % 16 = 14 from by omega]
  exact (kchain_succ _ _ _ _ r j 14).symm

end Cert.MoE.Kernel

end
-- ==== Proof.KFinal.lean ====
/-
  The kernel's result array.

  Only the last point of each sweep writes its output block back, and block `t / 16` of the [4096, 1024] result is
  rows `512 · (t / 16) …` of it; the eight sweeps' blocks tile the array. So the array ends holding, at token row `r` and
  column `j`, all sixteen pieces of row `r` (`GK`), and the program's result is that array regrouped to
  [2048, 2, 1024] by the one host operation after the launch.
-/
import proofs.«131107_j70480413328102_1_alg».proof.Proof.KChain
import Idealize.ShloMosaic.Lib.StableHlo.Run

noncomputable section

namespace Cert.MoE.Kernel

open Cert.KernelIdeal Cert.KernelIdeal.Gen Idealize.ShloMosaic Idealize.ShloMosaic.TcCoe Idealize.SL.Sem
open Idealize.ShloMosaic.ValueIdx Idealize.ShloMosaic.StableHlo Cert.MoE
open Idealize.ShloMosaic.Pipeline (Dat)

variable (m : (ℓ : Loc nD τ sig) → Buf (Elt Ideal) ℓ) (ρ : Dev nD → PrngReg)

/-- The [4096, 1024] result: all sixteen pieces of each token row. -/
def GK (c : Dev nD) : S4096x1024.Idx → EReal := fun i =>
  kchain (xfK m c) (w1K m c) (w2K m c) (cfK m c) ⟨(i 0).val, idx2_lt0 i⟩ ⟨(i 1).val, idx2_lt1 i⟩ 15

/-- What the last point of a sweep writes back is its block of `GK`. -/
theorem flushed_eq (c : Dev nD) (t : Fin cfg0.N) (hf : (cfg0.win 4).flush t = true) :
    (dats m 0 c).flushed 4 t = ((cfg0.win 4).blk t).view.read (Elt Ideal) (GK m c) := by
  have h15 : t.val % 16 = 15 := (flush0_4 t).mp hf
  obtain ⟨-, -, -, -, -, -, -, -, -, -, e0, e1, -⟩ := idx_facts t
  show (cfg0.win 4).cut (grid0.coords t) ((dats m 0 c).after 4 t) = _
  rw [after0_4]
  funext y
  obtain ⟨p, j, rfl⟩ : ∃ (p : Fin 512) (j : Fin 1024), y = ix2 p j := ⟨y 0, y 1, @eq_ix2 512 1024 y⟩
  have hN : t.val < 128 := lt_of_lt_of_eq t.isLt (show cfg0.N = 128 from N_0)
  show (outsAt0 m c t.val t.isLt).1 (ix2 p j) = GK m c (((cfg0.win 4).blk t).view.emb (ix2 p j))
  rw [out_eq m c t h15 p j ⟨512 * (t.val / 16) + p.val, by have := p.isLt; omega⟩ rfl]
  unfold GK
  refine congrArg₂ (fun a b => kchain (xfK m c) (w1K m c) (w2K m c) (cfK m c) a b 15) (Fin.ext ?_) (Fin.ext ?_)
  · show 512 * (t.val / 16) + p.val = win0_4.index t (0 : Fin 2) * 512 + 1 * p.val
    rw [e0]; omega
  · show j.val = win0_4.index t (1 : Fin 2) * 1024 + 1 * j.val
    rw [e1]; omega

/-- An index of the result is in point `t`'s block iff each coordinate is in the block's range on its axis. -/
theorem mem_blk (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v13).slice (win0_4.rect t)).set ↔ _
  rw [View.set_slice_whole, Rect.mem_set_unit]
  exact Iff.rfl

/-- Every row of the result lies in the block written back at the end of its sweep. -/
theorem cover (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 128 := N_0
  refine ⟨⟨16 * ((i 0).val / 512) + 15, by rw [hN]; omega⟩, ?_, ?_⟩
  · exact (flush0_4 _).mpr (by show (16 * ((i 0).val / 512) + 15) % 16 = 15; omega)
  · obtain ⟨-, -, -, -, -, -, -, -, -, -, e0, e1, -⟩ := idx_facts ⟨16 * ((i 0).val / 512) + 15, by rw [hN]; omega⟩
    rw [mem_blk]
    intro a
    match a with
    | ⟨0, _⟩ =>
      show win0_4.index _ (0 : Fin 2) * 512 ≤ (i 0).val ∧ (i 0).val < win0_4.index _ (0 : Fin 2) * 512 + 512
      rw [e0]
      show (16 * ((i 0).val / 512) + 15) / 16 * 512 ≤ (i 0).val ∧ (i 0).val < (16 * ((i 0).val / 512) + 15) / 16 * 512 + 512
      omega
    | ⟨1, _⟩ =>
      show win0_4.index _ (1 : Fin 2) * 1024 ≤ (i 1).val ∧ (i 1).val < win0_4.index _ (1 : Fin 2) * 1024 + 1024
      rw [e1]; omega

/-- So the result array ends holding `GK`. -/
theorem final (c : Dev nD) : (dats m 0 c).arrAt 4 cfg0.N = GK m c :=
  (dats m 0 c).arrAt_eq_of_cover 4 (GK m c) (flushed_eq m c) (cover)

/-- The host operation after the launch regroups it. -/
theorem tail_eq (c : Dev nD) :
    Pipeline.afterTail₀ cfgs (dats m) 0 (V0 m) [hostOps1] c main_v14
      = shapeCast S2048x2x1024 (GK m c) Facts₀.shapeCasts_S4096x1024_S2048x2x1024 := by
  unfold Pipeline.afterTail₀
  show StableHlo.after hostOps1 _ (Proc.devRef .tc main_v14) = _
  after_results
  have hw : Pipeline.withArrays (cfgs 0).spec c (V0 m c) (fun w => (dats m 0 c).arrAt w (cfgs 0).N)
      (Proc.devRef .tc main_v13) = GK m c :=
    (Pipeline.withArrays_arr spec0 launch0.win.arr_inj c _ _ 4).trans (final m c)
  rw [hw]
  rfl

end Cert.MoE.Kernel

end
-- ==== Proof.KV.lean ====
/-
  The four arrays the kernel's windows read, as the host operations before the launch leave them, over the extended
  reals: the token matrix is the argument regrouped to [4096, 1024] (the change of float format is the identity), the
  two weights are the arguments themselves, and the coefficient matrix holds, for token `r` and expert `l`, the zero
  word plus the sum over the two routing slots of the slot's weight where the slot's expert index is `l`.
-/
import proofs.«131107_j70480413328102_1_alg».proof.Proof.Gen.KernelIdeal.Frame
import proofs.«131107_j70480413328102_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.MoE.Kernel

open Cert.KernelIdeal Cert.KernelIdeal.Gen Idealize.ShloMosaic Idealize.ShloMosaic.TcCoe Idealize.SL.Sem
open Idealize.ShloMosaic.ValueIdx Idealize.ShloMosaic.StableHlo

variable {α : Type}

/-- A [4096, 2] array repeated along a new trailing axis of eight reads, at `(r, k, l)`, its entry `(r, k)`. -/
theorem bcast_slot (X : S4096x2.Idx → α) (r : Fin 4096) (k : Fin 2) (l : Fin 8) :
    broadcastInDim S4096x2x8 ![0, 1, 2] Facts₀.bcast_S4096x2x1_S4096x2x8_0_1_2
      (broadcastInDim S4096x2x1 ![0, 1] Facts₀.bcast_S4096x2_S4096x2x1_0_1 X) (ix3 r k l) = X (ix2 r k) := by
  rw [broadcastInDim_apply _ Facts₀.bcast_S4096x2x1_S4096x2x8_0_1_2 _ (ix3 r k l) (ix3 r k (0 : Fin 1)) (fun a => by
      match a with
      | ⟨0, _⟩ => show r.val = if (4096 : Nat) = 1 then 0 else r.val; rw [if_neg (by decide)]
      | ⟨1, _⟩ => show k.val = if (2 : Nat) = 1 then 0 else k.val; rw [if_neg (by decide)]
      | ⟨2, _⟩ => show 0 = if (1 : Nat) = 1 then 0 else l.val; rw [if_pos rfl]),
    broadcastInDim_apply _ Facts₀.bcast_S4096x2_S4096x2x1_0_1 _ (ix3 r k (0 : Fin 1)) (ix2 r k) (fun a => by
      match a with
      | ⟨0, _⟩ => show r.val = if (4096 : Nat) = 1 then 0 else r.val; rw [if_neg (by decide)]
      | ⟨1, _⟩ => show k.val = if (2 : Nat) = 1 then 0 else k.val; rw [if_neg (by decide)])]

/-- The expert numbers 0..7 laid along the trailing axis read, at `(r, k, l)`, the word of `l`. -/
theorem bcast_lane (r : Fin 4096) (k : Fin 2) (l : Fin 8) :
    broadcastInDim S4096x2x8 ![0, 1, 2] Facts₀.bcast_S1x1x8_S4096x2x8_0_1_2
      (broadcastInDim S1x1x8 ![2] Facts₀.bcast_S8_S1x1x8_2 (iotaInDim S8 32 0)) (ix3 r k l) = BitVec.ofNat 32 l.val := by
  rw [broadcastInDim_apply _ Facts₀.bcast_S1x1x8_S4096x2x8_0_1_2 _ (ix3 r k l) (ix3 (0 : Fin 1) (0 : Fin 1) l) (fun a => by
      match a with
      | ⟨0, _⟩ => show 0 = if (1 : Nat) = 1 then 0 else r.val; rw [if_pos rfl]
      | ⟨1, _⟩ => show 0 = if (1 : Nat) = 1 then 0 else k.val; rw [if_pos rfl]
      | ⟨2, _⟩ => show l.val = if (8 : Nat) = 1 then 0 else l.val; rw [if_neg (by decide)]),
    broadcastInDim_apply _ Facts₀.bcast_S8_S1x1x8_2 _ (ix3 (0 : Fin 1) (0 : Fin 1) l) (ix1 l) (fun a => by
      match a with
      | ⟨0, _⟩ => show l.val = if (8 : Nat) = 1 then 0 else l.val; rw [if_neg (by decide)])]
  rfl

/-- The routing-coefficient matrix as the host operations before the launch compute it. -/
def coefTerm (EW : FVec Ideal S4096x2 .f32) (EI : IVec S4096x2 32) : FVec Ideal S4096x8 .f32 :=
  Host.reduceAdd (F := Ideal)
    (select
      (cmpi .eq
        (broadcastInDim S4096x2x8 ![0, 1, 2] Facts₀.bcast_S4096x2x1_S4096x2x8_0_1_2 (broadcastInDim S4096x2x1 ![0, 1] Facts₀.bcast_S4096x2_S4096x2x1_0_1 EI))
        (broadcastInDim S4096x2x8 ![0, 1, 2] Facts₀.bcast_S1x1x8_S4096x2x8_0_1_2 (broadcastInDim S1x1x8 ![2] Facts₀.bcast_S8_S1x1x8_2 (iotaInDim S8 32 0))))
      (broadcastInDim S4096x2x8 ![0, 1, 2] Facts₀.bcast_S4096x2x1_S4096x2x8_0_1_2 (broadcastInDim S4096x2x1 ![0, 1] Facts₀.bcast_S4096x2_S4096x2x1_0_1 EW))
      (broadcastInDim S4096x2x8 ![] Facts₀.bcast_S_S4096x2x8 (id (constant (F := Ideal) S_ .f32 0x00000000#32))))
    (constant (F := Ideal) S_ .f32 0x00000000#32) Facts₀.reducesTo_S4096x2x8_S4096x8_d1 Facts₀.h_S_

/-- Entry `(r, l)` of it is Spec's coefficient of expert `l` for token `r`. -/
theorem coefTerm_apply (EW : FVec Ideal S4096x2 .f32) (EI : IVec S4096x2 32) (r : Fin 4096) (l : Fin 8) :
    coefTerm EW EI (ix2 r l) = Cert.MoE.cfOf EW EI r l := by
  unfold coefTerm Cert.MoE.cfOf
  simp only [Host.reduceAdd, Ideal.hostReduceAdd_def]
  rw [Ideal.hostReduceAdd_single Facts₀.reducesTo_S4096x2x8_S4096x8_d1 (by decide)]
  show _ + ∑ k : Fin 2, _ = _
  refine congrArg₂ (· + ·) rfl (Finset.sum_congr rfl fun k _ => ?_)
  have hidx : (Shape.Reduces.lift (s := S4096x2x8) (t := S4096x8) (a := (1 : Fin 3)) (by decide) (ix2 r l) k : S4096x2x8.Idx) = ix3 r k l :=
    funext fun a => Fin.ext (by match a with | ⟨0, _⟩ => rfl | ⟨1, _⟩ => rfl | ⟨2, _⟩ => rfl)
  rw [hidx]
  show Scalar.select (IntOp.cmpi .eq (broadcastInDim S4096x2x8 ![0, 1, 2] Facts₀.bcast_S4096x2x1_S4096x2x8_0_1_2 (broadcastInDim S4096x2x1 ![0, 1] Facts₀.bcast_S4096x2_S4096x2x1_0_1 EI) (ix3 r k l))
      (broadcastInDim S4096x2x8 ![0, 1, 2] Facts₀.bcast_S1x1x8_S4096x2x8_0_1_2 (broadcastInDim S1x1x8 ![2] Facts₀.bcast_S8_S1x1x8_2 (iotaInDim S8 32 0)) (ix3 r k l)))
      (broadcastInDim S4096x2x8 ![0, 1, 2] Facts₀.bcast_S4096x2x1_S4096x2x8_0_1_2 (broadcastInDim S4096x2x1 ![0, 1] Facts₀.bcast_S4096x2_S4096x2x1_0_1 EW) (ix3 r k l))
      (Ideal.ofBits .f32 0x00000000#32) = _
  rw [bcast_slot, bcast_lane, bcast_slot]

variable (m : (ℓ : Loc nD τ sig) → Buf (Elt Ideal) ℓ)

/-- The token matrix the launch finds. -/
theorem V_tokens (c : Dev nD) :
    (V m c main_v10 : S4096x1024.Idx → EReal)
      = shapeCast S4096x1024 (m ((c : Thread nD τ).loc main_arg0)) Facts₀.shapeCasts_S2048x2x1024_S4096x1024 := by
  dsimp only [V, V0]
  simp only [hostOps0, hostOps0_1, hostOps0_2, List.flatten_cons, List.flatten_nil, List.append_nil, List.cons_append,
    List.nil_append]
  after_results
  rfl

/-- The first weight the launch finds. -/
theorem V_w1 (c : Dev nD) : (V m c main_v11 : S8x1024x4096.Idx → EReal) = m ((c : Thread nD τ).loc main_arg3) := by
  dsimp only [V, V0]
  simp only [hostOps0, hostOps0_1, hostOps0_2, List.flatten_cons, List.flatten_nil, List.append_nil, List.cons_append,
    List.nil_append]
  after_results
  rfl

/-- The second weight the launch finds. -/
theorem V_w2 (c : Dev nD) : (V m c main_v12 : S8x4096x1024.Idx → EReal) = m ((c : Thread nD τ).loc main_arg4) := by
  dsimp only [V, V0]
  simp only [hostOps0, hostOps0_1, hostOps0_2, List.flatten_cons, List.flatten_nil, List.append_nil, List.cons_append,
    List.nil_append]
  after_results
  rfl

/-- The coefficient matrix the launch finds. -/
theorem V_coef (c : Dev nD) :
    (V m c main_v9 : S4096x8.Idx → EReal)
      = coefTerm (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results
  rfl

end Cert.MoE.Kernel

end
-- ==== Proof.KRun.lean ====
/-
  The kernel's run, read: every weakly fair execution ends with the result at the sixteen-piece sum of the ARGUMENT
  arrays, regrouped to [2048, 2, 1024], and the arguments unchanged.
-/
import proofs.«131107_j70480413328102_1_alg».proof.Proof.KFinal
import proofs.«131107_j70480413328102_1_alg».proof.Proof.KV

noncomputable section

namespace Cert.MoE.Kernel

open Cert.KernelIdeal Cert.KernelIdeal.Gen Idealize.ShloMosaic Idealize.ShloMosaic.TcCoe Idealize.SL.Sem
open Idealize.ShloMosaic.ValueIdx Cert.MoE

variable (m : (ℓ : Loc nD τ sig) → Buf (Elt Ideal) ℓ) (ρ : Dev nD → PrngReg)

theorem xfK_eq (c : Dev nD) :
    xfK m c = xfOf (shapeCast S4096x1024 (m ((c : Thread nD τ).loc main_arg0)) Facts₀.shapeCasts_S2048x2x1024_S4096x1024) := by
  unfold xfK; rw [V_tokens]
theorem w1K_eq (c : Dev nD) : w1K m c = w1Of (m ((c : Thread nD τ).loc main_arg3)) := by
  unfold w1K; rw [V_w1]
theorem w2K_eq (c : Dev nD) : w2K m c = w2Of (m ((c : Thread nD τ).loc main_arg4)) := by
  unfold w2K; rw [V_w2]
theorem cfK_eq (c : Dev nD) : cfK m c = cfOf (m ((c : Thread nD τ).loc main_arg1)) (m ((c : Thread nD τ).loc main_arg2)) := by
  funext r e
  unfold cfK
  rw [V_coef]
  exact coefTerm_apply _ _ r e

/-- The [4096, 1024] result as a function of the five argument arrays. -/
def GA (x0 : S2048x2x1024.Idx → EReal) (x1 : S4096x2.Idx → EReal) (x2 : S4096x2.Idx → BitVec 32)
    (x3 : S8x1024x4096.Idx → EReal) (x4 : S8x4096x1024.Idx → EReal) : S4096x1024.Idx → EReal := fun i =>
  kchain (xfOf (shapeCast S4096x1024 x0 Facts₀.shapeCasts_S2048x2x1024_S4096x1024)) (w1Of x3) (w2Of x4) (cfOf x1 x2)
    ⟨(i 0).val, idx2_lt0 i⟩ ⟨(i 1).val, idx2_lt1 i⟩ 15

theorem GK_eq (c : Dev nD) :
    GK m c = GA (m ((c : Thread nD τ).loc main_arg0)) (m ((c : Thread nD τ).loc main_arg1)) (m ((c : Thread nD τ).loc main_arg2))
      (m ((c : Thread nD τ).loc main_arg3)) (m ((c : Thread nD τ).loc main_arg4)) := by
  unfold GK GA
  rw [xfK_eq, w1K_eq, w2K_eq, cfK_eq]

theorem run : θ_run defs (onTc (τ := τ) (main (F := Ideal))) ⟨m, fun _ => 0, ρ⟩ fun r => ∀ c : Dev nD,
      r.2.mem ((c.tc : Thread nD τ).loc main_v14)
        = shapeCast S2048x2x1024 (GA (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
            Facts₀.shapeCasts_S4096x1024_S2048x2x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v14 (Pipeline.mem_restRefs_of main_v14 (by decide) (by decide))).trans (tail_eq m c)).trans
        (by rw [GK_eq]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.MoE.Kernel

end
-- ==== Proof.RefChainE0.lean ====
/-
  The first expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid0 (r : Fin 4096) (F : Fin 4096) :
    val_main_v4 (F := Ideal) x0 x3 (ValueIdx.ix2 r F)
      = hid (xfOf (val_main_v0 (F := Ideal) x0)) (w1Of x3) ⟨0 % 8, Nat.mod_lt _ (by decide)⟩ r F := by
  rw [val_main_v4_apply]
  unfold hid xfOf w1Of
  refine Finset.sum_congr rfl fun k _ => ?_
  have e1 : lidx_main_v4 (ValueIdx.ix2 r F) k = ValueIdx.ix2 r k :=
    funext fun a => by match a with | ⟨0, _⟩ => rfl | ⟨1, _⟩ => rfl
  have e2 : idx_main_v2 (idx_main_v3 (ridx_main_v4 (ValueIdx.ix2 r F) k)) = ValueIdx.ix3 ⟨0 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v3_apply, val_main_v2_apply, e1, e2]

/-- The activation is gelu of the hidden pre-activation. -/
theorem act0 (r : Fin 4096) (F : Fin 4096) :
    val_main_v17 (F := Ideal) x0 x3 (ValueIdx.ix2 r F)
      = gelu (hid (xfOf (val_main_v0 (F := Ideal) x0)) (w1Of x3) ⟨0 % 8, Nat.mod_lt _ (by decide)⟩ r F) := by
  rw [val_main_v17_apply, val_main_v16_apply, val_main_v15_apply, val_main_cst_3_apply, val_main_v14_apply, val_main_v13_apply, val_main_cst_2_apply, val_main_v12_apply, val_main_v11_apply, val_main_v10_apply, val_main_cst_1_apply,
    val_main_v9_apply, val_main_v8_apply, val_main_v7_apply, val_main_cst_0_apply, val_main_v6_apply, val_main_v5_apply, hid0]
  simp only [Ideal.mulf_def, Ideal.addf_def, Ideal.hostUnary_tanh_def, Ideal.ofBits_def]
  exact gelu_cube _

/-- The expert's output: the product of the activations with the expert's second weight slice. -/
theorem full0 (r : Fin 4096) (j : Fin 1024) :
    val_main_v20 (F := Ideal) x0 x3 x4 (ValueIdx.ix2 r j)
      = full (xfOf (val_main_v0 (F := Ideal) x0)) (w1Of x3) (w2Of x4) ⟨0 % 8, Nat.mod_lt _ (by decide)⟩ r j := by
  rw [val_main_v20_apply]
  unfold full w2Of
  refine Finset.sum_congr rfl fun F _ => ?_
  have e1 : lidx_main_v20 (ValueIdx.ix2 r j) F = ValueIdx.ix2 r F :=
    funext fun a => by match a with | ⟨0, _⟩ => rfl | ⟨1, _⟩ => rfl
  have e2 : idx_main_v18 (idx_main_v19 (ridx_main_v20 (ValueIdx.ix2 r j) F)) = ValueIdx.ix3 ⟨0 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act0, val_main_v19_apply, val_main_v18_apply, e2]

/-- The routing coefficient: the zero word plus, over the two slots, the slot's weight where the slot names this expert. -/
theorem cf0 (r : Fin 4096) (j : Fin 1024) :
    val_main_v26 (F := Ideal) x1 x2 (ValueIdx.ix2 r j) = cfOf x1 x2 r ⟨0 % 8, Nat.mod_lt _ (by decide)⟩ := by
  rw [val_main_v26_apply, val_main_v25_apply, val_main_v24_apply, val_main_cst_5_apply]
  unfold cfOf
  rw [Ideal.ofBits_def]
  refine congrArg (_ + ·) (Finset.sum_congr rfl fun k _ => ?_)
  have e1 : idx_main_v24 (idx_main_v25 (idx_main_v26 (ValueIdx.ix2 r j))) k = ValueIdx.ix2 r k :=
    funext fun a => by match a with | ⟨0, _⟩ => rfl | ⟨1, _⟩ => rfl
  rw [e1, val_main_v23_apply, val_main_v22_apply, val_main_v21_apply, val_main_c_apply, val_main_call0_v1_apply, val_main_call0_v0_apply, val_main_cst_4_apply, Ideal.ofBits_def]

/-- The running result after this expert is the one before it plus the expert's scaled output. -/
theorem step0 (r : Fin 4096) (j : Fin 1024) :
    val_main_v28 (F := Ideal) x0 x1 x2 x3 x4 (ValueIdx.ix2 r j)
      = val_main_v1 (F := Ideal) (ValueIdx.ix2 r j)
        + rterm (xfOf (val_main_v0 (F := Ideal) x0)) (w1Of x3) (w2Of x4) (cfOf x1 x2) r j 0 := by
  unfold rterm
  rw [val_main_v28_apply, val_main_v27_apply, cf0, full0, Ideal.addf_def, Ideal.mulf_def]

end Cert.MoE.Ref

end
-- ==== Proof.RefChainE1.lean ====
/-
  The second expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid1 (r : Fin 4096) (F : Fin 4096) :
    val_main_v31 (F := Ideal) x0 x3 (ValueIdx.ix2 r F)
      = hid (xfOf (val_main_v0 (F := Ideal) x0)) (w1Of x3) ⟨1 % 8, Nat.mod_lt _ (by decide)⟩ r F := by
  rw [val_main_v31_apply]
  unfold hid xfOf w1Of
  refine Finset.sum_congr rfl fun k _ => ?_
  have e1 : lidx_main_v31 (ValueIdx.ix2 r F) k = ValueIdx.ix2 r k :=
    funext fun a => by match a with | ⟨0, _⟩ => rfl | ⟨1, _⟩ => rfl
  have e2 : idx_main_v29 (idx_main_v30 (ridx_main_v31 (ValueIdx.ix2 r F) k)) = ValueIdx.ix3 ⟨1 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v30_apply, val_main_v29_apply, e1, e2]

/-- The activation is gelu of the hidden pre-activation. -/
theorem act1 (r : Fin 4096) (F : Fin 4096) :
    val_main_v44 (F := Ideal) x0 x3 (ValueIdx.ix2 r F)
      = gelu (hid (xfOf (val_main_v0 (F := Ideal) x0)) (w1Of x3) ⟨1 % 8, Nat.mod_lt _ (by decide)⟩ r F) := by
  rw [val_main_v44_apply, val_main_v43_apply, val_main_v42_apply, val_main_cst_9_apply, val_main_v41_apply, val_main_v40_apply, val_main_cst_8_apply, val_main_v39_apply, val_main_v38_apply, val_main_v37_apply, val_main_cst_7_apply,
    val_main_v36_apply, val_main_v35_apply, val_main_v34_apply, val_main_cst_6_apply, val_main_v33_apply, val_main_v32_apply, hid1]
  simp only [Ideal.mulf_def, Ideal.addf_def, Ideal.hostUnary_tanh_def, Ideal.ofBits_def]
  exact gelu_cube _

/-- The expert's output: the product of the activations with the expert's second weight slice. -/
theorem full1 (r : Fin 4096) (j : Fin 1024) :
    val_main_v47 (F := Ideal) x0 x3 x4 (ValueIdx.ix2 r j)
      = full (xfOf (val_main_v0 (F := Ideal) x0)) (w1Of x3) (w2Of x4) ⟨1 % 8, Nat.mod_lt _ (by decide)⟩ r j := by
  rw [val_main_v47_apply]
  unfold full w2Of
  refine Finset.sum_congr rfl fun F _ => ?_
  have e1 : lidx_main_v47 (ValueIdx.ix2 r j) F = ValueIdx.ix2 r F :=
    funext fun a => by match a with | ⟨0, _⟩ => rfl | ⟨1, _⟩ => rfl
  have e2 : idx_main_v45 (idx_main_v46 (ridx_main_v47 (ValueIdx.ix2 r j) F)) = ValueIdx.ix3 ⟨1 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act1, val_main_v46_apply, val_main_v45_apply, e2]

/-- The routing coefficient: the zero word plus, over the two slots, the slot's weight where the slot names this expert. -/
theorem cf1 (r : Fin 4096) (j : Fin 1024) :
    val_main_v53 (F := Ideal) x1 x2 (ValueIdx.ix2 r j) = cfOf x1 x2 r ⟨1 % 8, Nat.mod_lt _ (by decide)⟩ := by
  rw [val_main_v53_apply, val_main_v52_apply, val_main_v51_apply, val_main_cst_12_apply]
  unfold cfOf
  rw [Ideal.ofBits_def]
  refine congrArg (_ + ·) (Finset.sum_congr rfl fun k _ => ?_)
  have e1 : idx_main_v51 (idx_main_v52 (idx_main_v53 (ValueIdx.ix2 r j))) k = ValueIdx.ix2 r k :=
    funext fun a => by match a with | ⟨0, _⟩ => rfl | ⟨1, _⟩ => rfl
  rw [e1, val_main_v50_apply, val_main_v49_apply, val_main_v48_apply, val_main_c_10_apply, val_main_call1_v1_apply, val_main_call1_v0_apply, val_main_cst_11_apply, Ideal.ofBits_def]

/-- The running result after this expert is the one before it plus the expert's scaled output. -/
theorem step1 (r : Fin 4096) (j : Fin 1024) :
    val_main_v55 (F := Ideal) x0 x1 x2 x3 x4 (ValueIdx.ix2 r j)
      = val_main_v28 (F := Ideal) x0 x1 x2 x3 x4 (ValueIdx.ix2 r j)
        + rterm (xfOf (val_main_v0 (F := Ideal) x0)) (w1Of x3) (w2Of x4) (cfOf x1 x2) r j 1 := by
  unfold rterm
  rw [val_main_v55_apply, val_main_v54_apply, cf1, full1, Ideal.addf_def, Ideal.mulf_def]

end Cert.MoE.Ref

end
-- ==== Proof.RefChainE2.lean ====
/-
  The third expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid2 (r : Fin 4096) (F : Fin 4096) :
    val_main_v58 (F := Ideal) x0 x3 (ValueIdx.ix2 r F)
      = hid (xfOf (val_main_v0 (F := Ideal) x0)) (w1Of x3) ⟨2 % 8, Nat.mod_lt _ (by decide)⟩ r F := by
  rw [val_main_v58_apply]
  unfold hid xfOf w1Of
  refine Finset.sum_congr rfl fun k _ => ?_
  have e1 : lidx_main_v58 (ValueIdx.ix2 r F) k = ValueIdx.ix2 r k :=
    funext fun a => by match a with | ⟨0, _⟩ => rfl | ⟨1, _⟩ => rfl
  have e2 : idx_main_v56 (idx_main_v57 (ridx_main_v58 (ValueIdx.ix2 r F) k)) = ValueIdx.ix3 ⟨2 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v57_apply, val_main_v56_apply, e1, e2]

/-- The activation is gelu of the hidden pre-activation. -/
theorem act2 (r : Fin 4096) (F : Fin 4096) :
    val_main_v71 (F := Ideal) x0 x3 (ValueIdx.ix2 r F)
      = gelu (hid (xfOf (val_main_v0 (F := Ideal) x0)) (w1Of x3) ⟨2 % 8, Nat.mod_lt _ (by decide)⟩ r F) := by
  rw [val_main_v71_apply, val_main_v70_apply, val_main_v69_apply, val_main_cst_16_apply, val_main_v68_apply, val_main_v67_apply, val_main_cst_15_apply, val_main_v66_apply, val_main_v65_apply, val_main_v64_apply, val_main_cst_14_apply,
    val_main_v63_apply, val_main_v62_apply, val_main_v61_apply, val_main_cst_13_apply, val_main_v60_apply, val_main_v59_apply, hid2]
  simp only [Ideal.mulf_def, Ideal.addf_def, Ideal.hostUnary_tanh_def, Ideal.ofBits_def]
  exact gelu_cube _

/-- The expert's output: the product of the activations with the expert's second weight slice. -/
theorem full2 (r : Fin 4096) (j : Fin 1024) :
    val_main_v74 (F := Ideal) x0 x3 x4 (ValueIdx.ix2 r j)
      = full (xfOf (val_main_v0 (F := Ideal) x0)) (w1Of x3) (w2Of x4) ⟨2 % 8, Nat.mod_lt _ (by decide)⟩ r j := by
  rw [val_main_v74_apply]
  unfold full w2Of
  refine Finset.sum_congr rfl fun F _ => ?_
  have e1 : lidx_main_v74 (ValueIdx.ix2 r j) F = ValueIdx.ix2 r F :=
    funext fun a => by match a with | ⟨0, _⟩ => rfl | ⟨1, _⟩ => rfl
  have e2 : idx_main_v72 (idx_main_v73 (ridx_main_v74 (ValueIdx.ix2 r j) F)) = ValueIdx.ix3 ⟨2 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act2, val_main_v73_apply, val_main_v72_apply, e2]

/-- The routing coefficient: the zero word plus, over the two slots, the slot's weight where the slot names this expert. -/
theorem cf2 (r : Fin 4096) (j : Fin 1024) :
    val_main_v80 (F := Ideal) x1 x2 (ValueIdx.ix2 r j) = cfOf x1 x2 r ⟨2 % 8, Nat.mod_lt _ (by decide)⟩ := by
  rw [val_main_v80_apply, val_main_v79_apply, val_main_v78_apply, val_main_cst_19_apply]
  unfold cfOf
  rw [Ideal.ofBits_def]
  refine congrArg (_ + ·) (Finset.sum_congr rfl fun k _ => ?_)
  have e1 : idx_main_v78 (idx_main_v79 (idx_main_v80 (ValueIdx.ix2 r j))) k = ValueIdx.ix2 r k :=
    funext fun a => by match a with | ⟨0, _⟩ => rfl | ⟨1, _⟩ => rfl
  rw [e1, val_main_v77_apply, val_main_v76_apply, val_main_v75_apply, val_main_c_17_apply, val_main_call2_v1_apply, val_main_call2_v0_apply, val_main_cst_18_apply, Ideal.ofBits_def]

/-- The running result after this expert is the one before it plus the expert's scaled output. -/
theorem step2 (r : Fin 4096) (j : Fin 1024) :
    val_main_v82 (F := Ideal) x0 x1 x2 x3 x4 (ValueIdx.ix2 r j)
      = val_main_v55 (F := Ideal) x0 x1 x2 x3 x4 (ValueIdx.ix2 r j)
        + rterm (xfOf (val_main_v0 (F := Ideal) x0)) (w1Of x3) (w2Of x4) (cfOf x1 x2) r j 2 := by
  unfold rterm
  rw [val_main_v82_apply, val_main_v81_apply, cf2, full2, Ideal.addf_def, Ideal.mulf_def]

end Cert.MoE.Ref

end
-- ==== Proof.RefChainE3.lean ====
/-
  The fourth expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid3 (r : Fin 4096) (F : Fin 4096) :
    val_main_v85 (F := Ideal) x0 x3 (ValueIdx.ix2 r F)
      = hid (xfOf (val_main_v0 (F := Ideal) x0)) (w1Of x3) ⟨3 % 8, Nat.mod_lt _ (by decide)⟩ r F := by
  rw [val_main_v85_apply]
  unfold hid xfOf w1Of
  refine Finset.sum_congr rfl fun k _ => ?_
  have e1 : lidx_main_v85 (ValueIdx.ix2 r F) k = ValueIdx.ix2 r k :=
    funext fun a => by match a with | ⟨0, _⟩ => rfl | ⟨1, _⟩ => rfl
  have e2 : idx_main_v83 (idx_main_v84 (ridx_main_v85 (ValueIdx.ix2 r F) k)) = ValueIdx.ix3 ⟨3 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v84_apply, val_main_v83_apply, e1, e2]

/-- The activation is gelu of the hidden pre-activation. -/
theorem act3 (r : Fin 4096) (F : Fin 4096) :
    val_main_v98 (F := Ideal) x0 x3 (ValueIdx.ix2 r F)
      = gelu (hid (xfOf (val_main_v0 (F := Ideal) x0)) (w1Of x3) ⟨3 % 8, Nat.mod_lt _ (by decide)⟩ r F) := by
  rw [val_main_v98_apply, val_main_v97_apply, val_main_v96_apply, val_main_cst_23_apply, val_main_v95_apply, val_main_v94_apply, val_main_cst_22_apply, val_main_v93_apply, val_main_v92_apply, val_main_v91_apply, val_main_cst_21_apply,
    val_main_v90_apply, val_main_v89_apply, val_main_v88_apply, val_main_cst_20_apply, val_main_v87_apply, val_main_v86_apply, hid3]
  simp only [Ideal.mulf_def, Ideal.addf_def, Ideal.hostUnary_tanh_def, Ideal.ofBits_def]
  exact gelu_cube _

/-- The expert's output: the product of the activations with the expert's second weight slice. -/
theorem full3 (r : Fin 4096) (j : Fin 1024) :
    val_main_v101 (F := Ideal) x0 x3 x4 (ValueIdx.ix2 r j)
      = full (xfOf (val_main_v0 (F := Ideal) x0)) (w1Of x3) (w2Of x4) ⟨3 % 8, Nat.mod_lt _ (by decide)⟩ r j := by
  rw [val_main_v101_apply]
  unfold full w2Of
  refine Finset.sum_congr rfl fun F _ => ?_
  have e1 : lidx_main_v101 (ValueIdx.ix2 r j) F = ValueIdx.ix2 r F :=
    funext fun a => by match a with | ⟨0, _⟩ => rfl | ⟨1, _⟩ => rfl
  have e2 : idx_main_v99 (idx_main_v100 (ridx_main_v101 (ValueIdx.ix2 r j) F)) = ValueIdx.ix3 ⟨3 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act3, val_main_v100_apply, val_main_v99_apply, e2]

/-- The routing coefficient: the zero word plus, over the two slots, the slot's weight where the slot names this expert. -/
theorem cf3 (r : Fin 4096) (j : Fin 1024) :
    val_main_v107 (F := Ideal) x1 x2 (ValueIdx.ix2 r j) = cfOf x1 x2 r ⟨3 % 8, Nat.mod_lt _ (by decide)⟩ := by
  rw [val_main_v107_apply, val_main_v106_apply, val_main_v105_apply, val_main_cst_26_apply]
  unfold cfOf
  rw [Ideal.ofBits_def]
  refine congrArg (_ + ·) (Finset.sum_congr rfl fun k _ => ?_)
  have e1 : idx_main_v105 (idx_main_v106 (idx_main_v107 (ValueIdx.ix2 r j))) k = ValueIdx.ix2 r k :=
    funext fun a => by match a with | ⟨0, _⟩ => rfl | ⟨1, _⟩ => rfl
  rw [e1, val_main_v104_apply, val_main_v103_apply, val_main_v102_apply, val_main_c_24_apply, val_main_call3_v1_apply, val_main_call3_v0_apply, val_main_cst_25_apply, Ideal.ofBits_def]

/-- The running result after this expert is the one before it plus the expert's scaled output. -/
theorem step3 (r : Fin 4096) (j : Fin 1024) :
    val_main_v109 (F := Ideal) x0 x1 x2 x3 x4 (ValueIdx.ix2 r j)
      = val_main_v82 (F := Ideal) x0 x1 x2 x3 x4 (ValueIdx.ix2 r j)
        + rterm (xfOf (val_main_v0 (F := Ideal) x0)) (w1Of x3) (w2Of x4) (cfOf x1 x2) r j 3 := by
  unfold rterm
  rw [val_main_v109_apply, val_main_v108_apply, cf3, full3, Ideal.addf_def, Ideal.mulf_def]

end Cert.MoE.Ref

end
-- ==== Proof.RefChainE4.lean ====
/-
  The fifth expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid4 (r : Fin 4096) (F : Fin 4096) :
    val_main_v112 (F := Ideal) x0 x3 (ValueIdx.ix2 r F)
      = hid (xfOf (val_main_v0 (F := Ideal) x0)) (w1Of x3) ⟨4 % 8, Nat.mod_lt _ (by decide)⟩ r F := by
  rw [val_main_v112_apply]
  unfold hid xfOf w1Of
  refine Finset.sum_congr rfl fun k _ => ?_
  have e1 : lidx_main_v112 (ValueIdx.ix2 r F) k = ValueIdx.ix2 r k :=
    funext fun a => by match a with | ⟨0, _⟩ => rfl | ⟨1, _⟩ => rfl
  have e2 : idx_main_v110 (idx_main_v111 (ridx_main_v112 (ValueIdx.ix2 r F) k)) = ValueIdx.ix3 ⟨4 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v111_apply, val_main_v110_apply, e1, e2]

/-- The activation is gelu of the hidden pre-activation. -/
theorem act4 (r : Fin 4096) (F : Fin 4096) :
    val_main_v125 (F := Ideal) x0 x3 (ValueIdx.ix2 r F)
      = gelu (hid (xfOf (val_main_v0 (F := Ideal) x0)) (w1Of x3) ⟨4 % 8, Nat.mod_lt _ (by decide)⟩ r F) := by
  rw [val_main_v125_apply, val_main_v124_apply, val_main_v123_apply, val_main_cst_30_apply, val_main_v122_apply, val_main_v121_apply, val_main_cst_29_apply, val_main_v120_apply, val_main_v119_apply, val_main_v118_apply, val_main_cst_28_apply,
    val_main_v117_apply, val_main_v116_apply, val_main_v115_apply, val_main_cst_27_apply, val_main_v114_apply, val_main_v113_apply, hid4]
  simp only [Ideal.mulf_def, Ideal.addf_def, Ideal.hostUnary_tanh_def, Ideal.ofBits_def]
  exact gelu_cube _

/-- The expert's output: the product of the activations with the expert's second weight slice. -/
theorem full4 (r : Fin 4096) (j : Fin 1024) :
    val_main_v128 (F := Ideal) x0 x3 x4 (ValueIdx.ix2 r j)
      = full (xfOf (val_main_v0 (F := Ideal) x0)) (w1Of x3) (w2Of x4) ⟨4 % 8, Nat.mod_lt _ (by decide)⟩ r j := by
  rw [val_main_v128_apply]
  unfold full w2Of
  refine Finset.sum_congr rfl fun F _ => ?_
  have e1 : lidx_main_v128 (ValueIdx.ix2 r j) F = ValueIdx.ix2 r F :=
    funext fun a => by match a with | ⟨0, _⟩ => rfl | ⟨1, _⟩ => rfl
  have e2 : idx_main_v126 (idx_main_v127 (ridx_main_v128 (ValueIdx.ix2 r j) F)) = ValueIdx.ix3 ⟨4 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act4, val_main_v127_apply, val_main_v126_apply, e2]

/-- The routing coefficient: the zero word plus, over the two slots, the slot's weight where the slot names this expert. -/
theorem cf4 (r : Fin 4096) (j : Fin 1024) :
    val_main_v134 (F := Ideal) x1 x2 (ValueIdx.ix2 r j) = cfOf x1 x2 r ⟨4 % 8, Nat.mod_lt _ (by decide)⟩ := by
  rw [val_main_v134_apply, val_main_v133_apply, val_main_v132_apply, val_main_cst_33_apply]
  unfold cfOf
  rw [Ideal.ofBits_def]
  refine congrArg (_ + ·) (Finset.sum_congr rfl fun k _ => ?_)
  have e1 : idx_main_v132 (idx_main_v133 (idx_main_v134 (ValueIdx.ix2 r j))) k = ValueIdx.ix2 r k :=
    funext fun a => by match a with | ⟨0, _⟩ => rfl | ⟨1, _⟩ => rfl
  rw [e1, val_main_v131_apply, val_main_v130_apply, val_main_v129_apply, val_main_c_31_apply, val_main_call4_v1_apply, val_main_call4_v0_apply, val_main_cst_32_apply, Ideal.ofBits_def]

/-- The running result after this expert is the one before it plus the expert's scaled output. -/
theorem step4 (r : Fin 4096) (j : Fin 1024) :
    val_main_v136 (F := Ideal) x0 x1 x2 x3 x4 (ValueIdx.ix2 r j)
      = val_main_v109 (F := Ideal) x0 x1 x2 x3 x4 (ValueIdx.ix2 r j)
        + rterm (xfOf (val_main_v0 (F := Ideal) x0)) (w1Of x3) (w2Of x4) (cfOf x1 x2) r j 4 := by
  unfold rterm
  rw [val_main_v136_apply, val_main_v135_apply, cf4, full4, Ideal.addf_def, Ideal.mulf_def]

end Cert.MoE.Ref

end
-- ==== Proof.RefChainE5.lean ====
/-
  The sixth expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid5 (r : Fin 4096) (F : Fin 4096) :
    val_main_v139 (F := Ideal) x0 x3 (ValueIdx.ix2 r F)
      = hid (xfOf (val_main_v0 (F := Ideal) x0)) (w1Of x3) ⟨5 % 8, Nat.mod_lt _ (by decide)⟩ r F := by
  rw [val_main_v139_apply]
  unfold hid xfOf w1Of
  refine Finset.sum_congr rfl fun k _ => ?_
  have e1 : lidx_main_v139 (ValueIdx.ix2 r F) k = ValueIdx.ix2 r k :=
    funext fun a => by match a with | ⟨0, _⟩ => rfl | ⟨1, _⟩ => rfl
  have e2 : idx_main_v137 (idx_main_v138 (ridx_main_v139 (ValueIdx.ix2 r F) k)) = ValueIdx.ix3 ⟨5 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v138_apply, val_main_v137_apply, e1, e2]

/-- The activation is gelu of the hidden pre-activation. -/
theorem act5 (r : Fin 4096) (F : Fin 4096) :
    val_main_v152 (F := Ideal) x0 x3 (ValueIdx.ix2 r F)
      = gelu (hid (xfOf (val_main_v0 (F := Ideal) x0)) (w1Of x3) ⟨5 % 8, Nat.mod_lt _ (by decide)⟩ r F) := by
  rw [val_main_v152_apply, val_main_v151_apply, val_main_v150_apply, val_main_cst_37_apply, val_main_v149_apply, val_main_v148_apply, val_main_cst_36_apply, val_main_v147_apply, val_main_v146_apply, val_main_v145_apply, val_main_cst_35_apply,
    val_main_v144_apply, val_main_v143_apply, val_main_v142_apply, val_main_cst_34_apply, val_main_v141_apply, val_main_v140_apply, hid5]
  simp only [Ideal.mulf_def, Ideal.addf_def, Ideal.hostUnary_tanh_def, Ideal.ofBits_def]
  exact gelu_cube _

/-- The expert's output: the product of the activations with the expert's second weight slice. -/
theorem full5 (r : Fin 4096) (j : Fin 1024) :
    val_main_v155 (F := Ideal) x0 x3 x4 (ValueIdx.ix2 r j)
      = full (xfOf (val_main_v0 (F := Ideal) x0)) (w1Of x3) (w2Of x4) ⟨5 % 8, Nat.mod_lt _ (by decide)⟩ r j := by
  rw [val_main_v155_apply]
  unfold full w2Of
  refine Finset.sum_congr rfl fun F _ => ?_
  have e1 : lidx_main_v155 (ValueIdx.ix2 r j) F = ValueIdx.ix2 r F :=
    funext fun a => by match a with | ⟨0, _⟩ => rfl | ⟨1, _⟩ => rfl
  have e2 : idx_main_v153 (idx_main_v154 (ridx_main_v155 (ValueIdx.ix2 r j) F)) = ValueIdx.ix3 ⟨5 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act5, val_main_v154_apply, val_main_v153_apply, e2]

/-- The routing coefficient: the zero word plus, over the two slots, the slot's weight where the slot names this expert. -/
theorem cf5 (r : Fin 4096) (j : Fin 1024) :
    val_main_v161 (F := Ideal) x1 x2 (ValueIdx.ix2 r j) = cfOf x1 x2 r ⟨5 % 8, Nat.mod_lt _ (by decide)⟩ := by
  rw [val_main_v161_apply, val_main_v160_apply, val_main_v159_apply, val_main_cst_40_apply]
  unfold cfOf
  rw [Ideal.ofBits_def]
  refine congrArg (_ + ·) (Finset.sum_congr rfl fun k _ => ?_)
  have e1 : idx_main_v159 (idx_main_v160 (idx_main_v161 (ValueIdx.ix2 r j))) k = ValueIdx.ix2 r k :=
    funext fun a => by match a with | ⟨0, _⟩ => rfl | ⟨1, _⟩ => rfl
  rw [e1, val_main_v158_apply, val_main_v157_apply, val_main_v156_apply, val_main_c_38_apply, val_main_call5_v1_apply, val_main_call5_v0_apply, val_main_cst_39_apply, Ideal.ofBits_def]

/-- The running result after this expert is the one before it plus the expert's scaled output. -/
theorem step5 (r : Fin 4096) (j : Fin 1024) :
    val_main_v163 (F := Ideal) x0 x1 x2 x3 x4 (ValueIdx.ix2 r j)
      = val_main_v136 (F := Ideal) x0 x1 x2 x3 x4 (ValueIdx.ix2 r j)
        + rterm (xfOf (val_main_v0 (F := Ideal) x0)) (w1Of x3) (w2Of x4) (cfOf x1 x2) r j 5 := by
  unfold rterm
  rw [val_main_v163_apply, val_main_v162_apply, cf5, full5, Ideal.addf_def, Ideal.mulf_def]

end Cert.MoE.Ref

end
-- ==== Proof.RefChainE6.lean ====
/-
  The seventh expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid6 (r : Fin 4096) (F : Fin 4096) :
    val_main_v166 (F := Ideal) x0 x3 (ValueIdx.ix2 r F)
      = hid (xfOf (val_main_v0 (F := Ideal) x0)) (w1Of x3) ⟨6 % 8, Nat.mod_lt _ (by decide)⟩ r F := by
  rw [val_main_v166_apply]
  unfold hid xfOf w1Of
  refine Finset.sum_congr rfl fun k _ => ?_
  have e1 : lidx_main_v166 (ValueIdx.ix2 r F) k = ValueIdx.ix2 r k :=
    funext fun a => by match a with | ⟨0, _⟩ => rfl | ⟨1, _⟩ => rfl
  have e2 : idx_main_v164 (idx_main_v165 (ridx_main_v166 (ValueIdx.ix2 r F) k)) = ValueIdx.ix3 ⟨6 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v165_apply, val_main_v164_apply, e1, e2]

/-- The activation is gelu of the hidden pre-activation. -/
theorem act6 (r : Fin 4096) (F : Fin 4096) :
    val_main_v179 (F := Ideal) x0 x3 (ValueIdx.ix2 r F)
      = gelu (hid (xfOf (val_main_v0 (F := Ideal) x0)) (w1Of x3) ⟨6 % 8, Nat.mod_lt _ (by decide)⟩ r F) := by
  rw [val_main_v179_apply, val_main_v178_apply, val_main_v177_apply, val_main_cst_44_apply, val_main_v176_apply, val_main_v175_apply, val_main_cst_43_apply, val_main_v174_apply, val_main_v173_apply, val_main_v172_apply, val_main_cst_42_apply,
    val_main_v171_apply, val_main_v170_apply, val_main_v169_apply, val_main_cst_41_apply, val_main_v168_apply, val_main_v167_apply, hid6]
  simp only [Ideal.mulf_def, Ideal.addf_def, Ideal.hostUnary_tanh_def, Ideal.ofBits_def]
  exact gelu_cube _

/-- The expert's output: the product of the activations with the expert's second weight slice. -/
theorem full6 (r : Fin 4096) (j : Fin 1024) :
    val_main_v182 (F := Ideal) x0 x3 x4 (ValueIdx.ix2 r j)
      = full (xfOf (val_main_v0 (F := Ideal) x0)) (w1Of x3) (w2Of x4) ⟨6 % 8, Nat.mod_lt _ (by decide)⟩ r j := by
  rw [val_main_v182_apply]
  unfold full w2Of
  refine Finset.sum_congr rfl fun F _ => ?_
  have e1 : lidx_main_v182 (ValueIdx.ix2 r j) F = ValueIdx.ix2 r F :=
    funext fun a => by match a with | ⟨0, _⟩ => rfl | ⟨1, _⟩ => rfl
  have e2 : idx_main_v180 (idx_main_v181 (ridx_main_v182 (ValueIdx.ix2 r j) F)) = ValueIdx.ix3 ⟨6 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act6, val_main_v181_apply, val_main_v180_apply, e2]

/-- The routing coefficient: the zero word plus, over the two slots, the slot's weight where the slot names this expert. -/
theorem cf6 (r : Fin 4096) (j : Fin 1024) :
    val_main_v188 (F := Ideal) x1 x2 (ValueIdx.ix2 r j) = cfOf x1 x2 r ⟨6 % 8, Nat.mod_lt _ (by decide)⟩ := by
  rw [val_main_v188_apply, val_main_v187_apply, val_main_v186_apply, val_main_cst_47_apply]
  unfold cfOf
  rw [Ideal.ofBits_def]
  refine congrArg (_ + ·) (Finset.sum_congr rfl fun k _ => ?_)
  have e1 : idx_main_v186 (idx_main_v187 (idx_main_v188 (ValueIdx.ix2 r j))) k = ValueIdx.ix2 r k :=
    funext fun a => by match a with | ⟨0, _⟩ => rfl | ⟨1, _⟩ => rfl
  rw [e1, val_main_v185_apply, val_main_v184_apply, val_main_v183_apply, val_main_c_45_apply, val_main_call6_v1_apply, val_main_call6_v0_apply, val_main_cst_46_apply, Ideal.ofBits_def]

/-- The running result after this expert is the one before it plus the expert's scaled output. -/
theorem step6 (r : Fin 4096) (j : Fin 1024) :
    val_main_v190 (F := Ideal) x0 x1 x2 x3 x4 (ValueIdx.ix2 r j)
      = val_main_v163 (F := Ideal) x0 x1 x2 x3 x4 (ValueIdx.ix2 r j)
        + rterm (xfOf (val_main_v0 (F := Ideal) x0)) (w1Of x3) (w2Of x4) (cfOf x1 x2) r j 6 := by
  unfold rterm
  rw [val_main_v190_apply, val_main_v189_apply, cf6, full6, Ideal.addf_def, Ideal.mulf_def]

end Cert.MoE.Ref

end
-- ==== Proof.RefChainE7.lean ====
/-
  The eighth expert's share of the reference program, read at one output coordinate: its hidden pre-activation is
  the sum over the 1024 input features, its activation is the tanh form of gelu, its output is the sum over the 4096
  hidden units, its coefficient is the sum over the two routing slots, and the running result grows by the
  coefficient times the output.
-/
import proofs.«131107_j70480413328102_1_alg».proof.Proof.Gen.ReferenceIdeal.Read
import proofs.«131107_j70480413328102_1_alg».proof.Proof.Spec

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The hidden pre-activation: the product of the token matrix with the expert's first weight slice. -/
theorem hid7 (r : Fin 4096) (F : Fin 4096) :
    val_main_v193 (F := Ideal) x0 x3 (ValueIdx.ix2 r F)
      = hid (xfOf (val_main_v0 (F := Ideal) x0)) (w1Of x3) ⟨7 % 8, Nat.mod_lt _ (by decide)⟩ r F := by
  rw [val_main_v193_apply]
  unfold hid xfOf w1Of
  refine Finset.sum_congr rfl fun k _ => ?_
  have e1 : lidx_main_v193 (ValueIdx.ix2 r F) k = ValueIdx.ix2 r k :=
    funext fun a => by match a with | ⟨0, _⟩ => rfl | ⟨1, _⟩ => rfl
  have e2 : idx_main_v191 (idx_main_v192 (ridx_main_v193 (ValueIdx.ix2 r F) k)) = ValueIdx.ix3 ⟨7 % 8, Nat.mod_lt _ (by decide)⟩ k F :=
    funext fun a => Fin.ext (by
      have hk := k.isLt; have hF := F.isLt
      match a with
      | ⟨0, _⟩ => rfl
      | ⟨1, _⟩ => show (k.val * 4096 + F.val) / 4096 % 1024 = k.val; omega
      | ⟨2, _⟩ => show (k.val * 4096 + F.val) % 4096 = F.val; omega)
  rw [val_main_v192_apply, val_main_v191_apply, e1, e2]

/-- The activation is gelu of the hidden pre-activation. -/
theorem act7 (r : Fin 4096) (F : Fin 4096) :
    val_main_v206 (F := Ideal) x0 x3 (ValueIdx.ix2 r F)
      = gelu (hid (xfOf (val_main_v0 (F := Ideal) x0)) (w1Of x3) ⟨7 % 8, Nat.mod_lt _ (by decide)⟩ r F) := by
  rw [val_main_v206_apply, val_main_v205_apply, val_main_v204_apply, val_main_cst_51_apply, val_main_v203_apply, val_main_v202_apply, val_main_cst_50_apply, val_main_v201_apply, val_main_v200_apply, val_main_v199_apply, val_main_cst_49_apply,
    val_main_v198_apply, val_main_v197_apply, val_main_v196_apply, val_main_cst_48_apply, val_main_v195_apply, val_main_v194_apply, hid7]
  simp only [Ideal.mulf_def, Ideal.addf_def, Ideal.hostUnary_tanh_def, Ideal.ofBits_def]
  exact gelu_cube _

/-- The expert's output: the product of the activations with the expert's second weight slice. -/
theorem full7 (r : Fin 4096) (j : Fin 1024) :
    val_main_v209 (F := Ideal) x0 x3 x4 (ValueIdx.ix2 r j)
      = full (xfOf (val_main_v0 (F := Ideal) x0)) (w1Of x3) (w2Of x4) ⟨7 % 8, Nat.mod_lt _ (by decide)⟩ r j := by
  rw [val_main_v209_apply]
  unfold full w2Of
  refine Finset.sum_congr rfl fun F _ => ?_
  have e1 : lidx_main_v209 (ValueIdx.ix2 r j) F = ValueIdx.ix2 r F :=
    funext fun a => by match a with | ⟨0, _⟩ => rfl | ⟨1, _⟩ => rfl
  have e2 : idx_main_v207 (idx_main_v208 (ridx_main_v209 (ValueIdx.ix2 r j) F)) = ValueIdx.ix3 ⟨7 % 8, Nat.mod_lt _ (by decide)⟩ F j :=
    funext fun a => Fin.ext (by
      have hj := j.isLt; have hF := F.isLt
      match a with
      | ⟨0, _⟩ => rfl
      | ⟨1, _⟩ => show (F.val * 1024 + j.val) / 1024 % 4096 = F.val; omega
      | ⟨2, _⟩ => show (F.val * 1024 + j.val) % 1024 = j.val; omega)
  rw [e1, act7, val_main_v208_apply, val_main_v207_apply, e2]

/-- The routing coefficient: the zero word plus, over the two slots, the slot's weight where the slot names this expert. -/
theorem cf7 (r : Fin 4096) (j : Fin 1024) :
    val_main_v215 (F := Ideal) x1 x2 (ValueIdx.ix2 r j) = cfOf x1 x2 r ⟨7 % 8, Nat.mod_lt _ (by decide)⟩ := by
  rw [val_main_v215_apply, val_main_v214_apply, val_main_v213_apply, val_main_cst_54_apply]
  unfold cfOf
  rw [Ideal.ofBits_def]
  refine congrArg (_ + ·) (Finset.sum_congr rfl fun k _ => ?_)
  have e1 : idx_main_v213 (idx_main_v214 (idx_main_v215 (ValueIdx.ix2 r j))) k = ValueIdx.ix2 r k :=
    funext fun a => by match a with | ⟨0, _⟩ => rfl | ⟨1, _⟩ => rfl
  rw [e1, val_main_v212_apply, val_main_v211_apply, val_main_v210_apply, val_main_c_52_apply, val_main_call7_v1_apply, val_main_call7_v0_apply, val_main_cst_53_apply, Ideal.ofBits_def]

/-- The running result after this expert is the one before it plus the expert's scaled output. -/
theorem step7 (r : Fin 4096) (j : Fin 1024) :
    val_main_v217 (F := Ideal) x0 x1 x2 x3 x4 (ValueIdx.ix2 r j)
      = val_main_v190 (F := Ideal) x0 x1 x2 x3 x4 (ValueIdx.ix2 r j)
        + rterm (xfOf (val_main_v0 (F := Ideal) x0)) (w1Of x3) (w2Of x4) (cfOf x1 x2) r j 7 := by
  unfold rterm
  rw [val_main_v217_apply, val_main_v216_apply, cf7, full7, Ideal.addf_def, Ideal.mulf_def]

end Cert.MoE.Ref

end
-- ==== Proof.RefChain.lean ====
/-
  The reference program's result, read at one output coordinate, is the expert-by-expert sum: the zero word plus,
  for each of the eight experts in turn, the expert's routing coefficient times its output over the whole hidden axis.
-/
import proofs.«131107_j70480413328102_1_alg».proof.Proof.Gen.ReferenceIdeal.Read
import proofs.«131107_j70480413328102_1_alg».proof.Proof.Spec
import proofs.«131107_j70480413328102_1_alg».proof.Proof.RefChainE0
import proofs.«131107_j70480413328102_1_alg».proof.Proof.RefChainE1
import proofs.«131107_j70480413328102_1_alg».proof.Proof.RefChainE2
import proofs.«131107_j70480413328102_1_alg».proof.Proof.RefChainE3
import proofs.«131107_j70480413328102_1_alg».proof.Proof.RefChainE4
import proofs.«131107_j70480413328102_1_alg».proof.Proof.RefChainE5
import proofs.«131107_j70480413328102_1_alg».proof.Proof.RefChainE6
import proofs.«131107_j70480413328102_1_alg».proof.Proof.RefChainE7

noncomputable section

namespace Cert.MoE.Ref

open Idealize.ShloMosaic Cert.ReferenceIdeal Cert.ReferenceIdeal.Read

variable (x0 : (⟨S2048x2x1024, .f32⟩ : BufTy).Contents (Elt Ideal)) (x1 : (⟨S4096x2, .f32⟩ : BufTy).Contents (Elt Ideal))
  (x2 : (⟨S4096x2, .i32⟩ : BufTy).Contents (Elt Ideal)) (x3 : (⟨S8x1024x4096, .f32⟩ : BufTy).Contents (Elt Ideal))
  (x4 : (⟨S8x4096x1024, .f32⟩ : BufTy).Contents (Elt Ideal))

/-- The block the running result starts from holds the zero word everywhere. -/
theorem zero_block (r : Fin 4096) (j : Fin 1024) :
    val_main_v1 (F := Ideal) (ValueIdx.ix2 r j) = Ideal.ofBits .f32 0x00000000#32 := by
  rw [val_main_v1_apply, val_main_cst_apply, Ideal.ofBits_def]

/-- After the first expert the running result is the chain's first stage. -/
theorem chain0 (r : Fin 4096) (j : Fin 1024) :
    val_main_v28 (F := Ideal) x0 x1 x2 x3 x4 (ValueIdx.ix2 r j) = rchain (xfOf (val_main_v0 (F := Ideal) x0)) (w1Of x3) (w2Of x4) (cfOf x1 x2) r j 0 := by
  rw [step0, zero_block, rchain_zero]

/-- After expert 1 the running result is stage 1 of the chain. -/
theorem chain1 (r : Fin 4096) (j : Fin 1024) :
    val_main_v55 (F := Ideal) x0 x1 x2 x3 x4 (ValueIdx.ix2 r j) = rchain (xfOf (val_main_v0 (F := Ideal) x0)) (w1Of x3) (w2Of x4) (cfOf x1 x2) r j 1 := by
  rw [step1, chain0]
  exact (rchain_succ _ _ _ _ r j 0).symm

/-- After expert 2 the running result is stage 2 of the chain. -/
theorem chain2 (r : Fin 4096) (j : Fin 1024) :
    val_main_v82 (F := Ideal) x0 x1 x2 x3 x4 (ValueIdx.ix2 r j) = rchain (xfOf (val_main_v0 (F := Ideal) x0)) (w1Of x3) (w2Of x4) (cfOf x1 x2) r j 2 := by
  rw [step2, chain1]
  exact (rchain_succ _ _ _ _ r j 1).symm

/-- After expert 3 the running result is stage 3 of the chain. -/
theorem chain3 (r : Fin 4096) (j : Fin 1024) :
    val_main_v109 (F := Ideal) x0 x1 x2 x3 x4 (ValueIdx.ix2 r j) = rchain (xfOf (val_main_v0 (F := Ideal) x0)) (w1Of x3) (w2Of x4) (cfOf x1 x2) r j 3 := by
  rw [step3, chain2]
  exact (rchain_succ _ _ _ _ r j 2).symm

/-- After expert 4 the running result is stage 4 of the chain. -/
theorem chain4 (r : Fin 4096) (j : Fin 1024) :
    val_main_v136 (F := Ideal) x0 x1 x2 x3 x4 (ValueIdx.ix2 r j) = rchain (xfOf (val_main_v0 (F := Ideal) x0)) (w1Of x3) (w2Of x4) (cfOf x1 x2) r j 4 := by
  rw [step4, chain3]
  exact (rchain_succ _ _ _ _ r j 3).symm

/-- After expert 5 the running result is stage 5 of the chain. -/
theorem chain5 (r : Fin 4096) (j : Fin 1024) :
    val_main_v163 (F := Ideal) x0 x1 x2 x3 x4 (ValueIdx.ix2 r j) = rchain (xfOf (val_main_v0 (F := Ideal) x0)) (w1Of x3) (w2Of x4) (cfOf x1 x2) r j 5 := by
  rw [step5, chain4]
  exact (rchain_succ _ _ _ _ r j 4).symm

/-- After expert 6 the running result is stage 6 of the chain. -/
theorem chain6 (r : Fin 4096) (j : Fin 1024) :
    val_main_v190 (F := Ideal) x0 x1 x2 x3 x4 (ValueIdx.ix2 r j) = rchain (xfOf (val_main_v0 (F := Ideal) x0)) (w1Of x3) (w2Of x4) (cfOf x1 x2) r j 6 := by
  rw [step6, chain5]
  exact (rchain_succ _ _ _ _ r j 5).symm

/-- After expert 7 the running result is stage 7 of the chain. -/
theorem chain7 (r : Fin 4096) (j : Fin 1024) :
    val_main_v217 (F := Ideal) x0 x1 x2 x3 x4 (ValueIdx.ix2 r j) = rchain (xfOf (val_main_v0 (F := Ideal) x0)) (w1Of x3) (w2Of x4) (cfOf x1 x2) r j 7 := by
  rw [step7, chain6]
  exact (rchain_succ _ _ _ _ r j 6).symm

/-- The reference's result at row `r`, column `j` is the expert-by-expert sum over all eight experts. -/
theorem ref_apply (x0 : (⟨S2048x2x1024, .f32⟩ : BufTy).Contents (Elt Ideal)) (x1 : (⟨S4096x2, .f32⟩ : BufTy).Contents (Elt Ideal)) (x2 : (⟨S4096x2, .i32⟩ : BufTy).Contents (Elt Ideal)) (x3 : (⟨S8x1024x4096, .f32⟩ : BufTy).Contents (Elt Ideal)) (x4 : (⟨S8x4096x1024, .f32⟩ : BufTy).Contents (Elt Ideal)) (r : Fin 4096) (j : Fin 1024) :
    Cert.ReferenceIdeal.Read.val_main_v217 (F := Ideal) x0 x1 x2 x3 x4 (ValueIdx.ix2 r j)
      = Cert.MoE.rchain (Cert.MoE.xfOf (Cert.ReferenceIdeal.Read.val_main_v0 (F := Ideal) x0)) (Cert.MoE.w1Of x3) (Cert.MoE.w2Of x4) (Cert.MoE.cfOf x1 x2) r j 7 :=
  chain7 x0 x1 x2 x3 x4 r j

end Cert.MoE.Ref

end
-- ==== Proof.Finite.lean ====
/-
  Finiteness read back as realness. The precondition compares the absolute value of every entry of the four float
  inputs with plus infinity and takes the conjunction of all the comparisons. Over the extended reals the absolute value
  is `max x (-x)`, and `max x (-x) < ⊤` rules out both infinities, so every entry is a real number. A reshape only
  renames indices, so it keeps that property.
-/
import proofs.«131107_j70480413328102_1_alg».proof.Pre_finite_inputs
import proofs.«131107_j70480413328102_1_alg».proof.Proof.Gen.Pre_finite_inputs
import proofs.«131107_j70480413328102_1_alg».proof.Proof.Spec
import Idealize.ShloMosaic.Lib.ReduceAll

noncomputable section

namespace Cert.MoE.Finite

open Idealize.ShloMosaic

/-- The f32 word with all exponent bits set and no fraction bit is plus infinity. -/
theorem inf_eq : Ideal.ofBits .f32 0x7F800000#32 = (⊤ : EReal) := by
  simp [Ideal.ofBits, Ideal.ieee]

/-- An extended real whose absolute value `max x (-x)` lies strictly below plus infinity is a real number. -/
theorem isReal_of_abs_lt_top (x : EReal) (h : max x (-x) < ⊤) : IsReal x := by
  induction x using EReal.rec with
  | bot => simp at h
  | coe a => exact ⟨a, rfl⟩
  | top => simp at h

/-- The scalar shape has one index. -/
instance : Subsingleton Cert.Pre_finite_inputs.S_.Idx := ⟨fun a b => funext fun d => d.elim0⟩

open Cert.Pre_finite_inputs in
/-- If the conjunction over all entries of `|x| < +inf` is true, every entry of `x` is a real number. -/
theorem reals_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] hb (constant (F := Ideal) S_ .f32 0x7F800000#32))) init hr hu j = 1#1)
    (i : s.Idx) : IsReal (x i) := by
  have h1 := Host.reduce_andi_all _ init hr hu j e i
  have h2 : BitVec.ofBool (decide (max (x i) (-(x i)) < Ideal.ofBits .f32 0x7F800000#32)) = 1#1 := h1
  rw [inf_eq] at h2
  have h3 : max (x i) (-(x i)) < (⊤ : EReal) := by
    by_contra hn
    rw [decide_eq_false hn] at h2
    exact absurd h2 (by decide)
  exact isReal_of_abs_lt_top _ h3

/-- A reshape reads the same entries under another index set, so it keeps every entry a real number. -/
theorem isReal_shapeCast {s t : Shape} (x : s.Idx → EReal) (hc : s.ShapeCasts t) (hx : ∀ i, IsReal (x i)) (j : t.Idx) :
    IsReal (shapeCast t x hc j) := hx _

open Cert.Pre_finite_inputs in
/-- The precondition "every float input is finite" makes every entry of the four float inputs a real number. -/
theorem reals_of_pre [Cert.Pre_finite_inputs.Facts]
    (a0 : FVec Ideal Cert.Pre_finite_inputs.S2048x2x1024 .f32) (a1 : FVec Ideal Cert.Pre_finite_inputs.S4096x2 .f32) (a2 : IVec Cert.Pre_finite_inputs.S4096x2 32) (a3 : FVec Ideal Cert.Pre_finite_inputs.S8x1024x4096 .f32) (a4 : FVec Ideal Cert.Pre_finite_inputs.S8x4096x1024 .f32)
    (h : Cert.Pre_finite_inputs.fn (F := Ideal) a0 a1 a2 a3 a4 = fun _ => 1#1) :
    (∀ i, Cert.MoE.IsReal (a0 i)) ∧ (∀ i, Cert.MoE.IsReal (a1 i)) ∧ (∀ i, Cert.MoE.IsReal (a3 i)) ∧ (∀ i, Cert.MoE.IsReal (a4 i)) := by
  have h0 := congrFun h ValueIdx.ix0
  unfold Cert.Pre_finite_inputs.fn Cert.Pre_finite_inputs.fn_part1 at h0
  dsimp only at h0
  obtain ⟨h012, e4⟩ := IntOp.andi_eq_one.1 h0
  obtain ⟨h01, e3⟩ := IntOp.andi_eq_one.1 h012
  obtain ⟨e0, e1⟩ := IntOp.andi_eq_one.1 h01
  exact ⟨reals_of_all a0 _ _ _ _ _ e0, reals_of_all a1 _ _ _ _ _ e1, reals_of_all a3 _ _ _ _ _ e3,
    reals_of_all a4 _ _ _ _ _ e4⟩

end Cert.MoE.Finite

end
-- ==== Proof.Bridge.lean ====
/-
  The reference's [4096, 1024] result is the sixteen-piece sum.

  Expert by expert the reference adds, for token row `r` and column `j`, the coefficient times the expert's whole
  output (`rchain`); when the tokens, the routing weights and the two weight tensors hold real numbers, that is the
  zero word plus the sixteen half-axis pieces (`kchain`), by the distributive law for reals.
-/
import proofs.«131107_j70480413328102_1_alg».proof.Proof.RefChain
import proofs.«131107_j70480413328102_1_alg».proof.Proof.Finite

noncomputable section

namespace Cert.MoE.Ref

open Cert.ReferenceIdeal Cert.ReferenceIdeal.Gen Cert.ReferenceIdeal.Read Idealize.ShloMosaic Idealize.ShloMosaic.ValueIdx Cert.MoE

theorem ref_eq_kchain (x0 : (⟨S2048x2x1024, .f32⟩ : BufTy).Contents (Elt Ideal)) (x1 : (⟨S4096x2, .f32⟩ : BufTy).Contents (Elt Ideal))
    (x2 : (⟨S4096x2, .i32⟩ : BufTy).Contents (Elt Ideal)) (x3 : (⟨S8x1024x4096, .f32⟩ : BufTy).Contents (Elt Ideal))
    (x4 : (⟨S8x4096x1024, .f32⟩ : BufTy).Contents (Elt Ideal))
    (h0 : ∀ i, IsReal (x0 i)) (h1 : ∀ i, IsReal (x1 i)) (h3 : ∀ i, IsReal (x3 i)) (h4 : ∀ i, IsReal (x4 i))
    (i : S4096x1024.Idx) :
    val_main_v217 (F := Ideal) x0 x1 x2 x3 x4 i
      = kchain (xfOf (val_main_v0 (F := Ideal) x0)) (w1Of x3) (w2Of x4) (cfOf x1 x2)
          ⟨(i 0).val, idx2_lt0 i⟩ ⟨(i 1).val, idx2_lt1 i⟩ 15 := by
  obtain ⟨r, j, rfl⟩ : ∃ (r : Fin 4096) (j : Fin 1024), i = ix2 r j := ⟨i 0, i 1, eq_ix2 i⟩
  rw [ref_apply]
  refine (kchain_eq_rchain _ _ _ _ (fun r k => ?_) (fun e k F => h3 _) (fun e F j => h4 _)
    (fun r e => isReal_cfOf x1 x2 h1 r e) r j).symm
  unfold xfOf val_main_v0
  exact Cert.MoE.Finite.isReal_shapeCast x0 _ h0 _

end Cert.MoE.Ref

end
-- ==== Proof.lean ====
/-
  A mixture-of-experts layer: a fused kernel against its jnp reference, over the extended reals.

  Both programs compute, for each of 4096 tokens `r` and 1024 output columns `j`,

      y r j = Σ_e coef r e · Σ_F gelu (Σ_k x r k · w1 e k F) · w2 e F j      (8 experts, 4096 hidden units),

  where `coef r e` adds the routing weights of the (two) slots of token `r` that name expert `e` and gelu is the tanh
  form. The reference adds the eight experts one after the other, each over its whole hidden axis. The kernel walks a
  grid of 8 token blocks × 8 experts × 2 halves of the hidden axis, keeps a running [512, 1024] block across the
  sixteen points of a token block, adds at each point the coefficient times that half's contribution, and writes the
  block back after the sixteenth. Its matrix products go through a narrower float format, which changes nothing over
  the extended reals.

  The two results are the same sum arranged differently; the one law needed beyond reordering is
  `c · (a + b) = c · a + c · b` for the two halves of an expert's hidden axis, which holds because every input is
  finite (the precondition), so every intermediate value is a real number.

  The modules: Spec (the mathematics and the two arrangements), Finite (the precondition read as realness),
  RefChain* and Bridge (the reference is the expert-by-expert arrangement, hence the sixteen-piece one), KPay, KPiece,
  KBlocks, KV, KChain, KFinal, KRun (what a grid point computes, what each control case leaves, which array entries a
  block holds, what the arrays hold at the launch, the induction over the points, the result array, the run).
-/
import proofs.«131107_j70480413328102_1_alg».proof.Defs
import proofs.«131107_j70480413328102_1_alg».proof.Proof.Gen.Kernel
import proofs.«131107_j70480413328102_1_alg».proof.Proof.Gen.Kernel.Skeleton
import proofs.«131107_j70480413328102_1_alg».proof.Proof.Gen.Kernel.Launch
import proofs.«131107_j70480413328102_1_alg».proof.Proof.Gen.Kernel.Points
import proofs.«131107_j70480413328102_1_alg».proof.Proof.Gen.Kernel.Frame
import proofs.«131107_j70480413328102_1_alg».proof.Proof.Gen.KernelIdeal
import proofs.«131107_j70480413328102_1_alg».proof.Proof.Gen.KernelIdeal.Skeleton
import proofs.«131107_j70480413328102_1_alg».proof.Proof.Gen.KernelIdeal.Launch
import proofs.«131107_j70480413328102_1_alg».proof.Proof.Gen.KernelIdeal.Points
import proofs.«131107_j70480413328102_1_alg».proof.Proof.Gen.KernelIdeal.Frame
import proofs.«131107_j70480413328102_1_alg».proof.Proof.Gen.ReferenceIdeal
import proofs.«131107_j70480413328102_1_alg».proof.Proof.Gen.Pre_finite_inputs
import proofs.«131107_j70480413328102_1_alg».proof.Proof.Gen.ReferenceIdeal.Run
import proofs.«131107_j70480413328102_1_alg».proof.Proof.Gen.ReferenceIdeal.Read
import proofs.«131107_j70480413328102_1_alg».proof.Proof.KRun
import proofs.«131107_j70480413328102_1_alg».proof.Proof.Bridge
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Run from memories that agree on finite arguments, the kernel ends at the sixteen-piece sum and the reference at
    the expert-by-expert sum of the same arrays, regrouped by the same final reshape: equal extended reals. -/
theorem algebraic : Cert.algebraic_KernelIdeal_ReferenceIdeal := by
  intro m ρ m' ρ' hpre hagree
  refine ⟨_, Cert.MoE.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3, h4⟩ := Cert.MoE.Finite.reals_of_pre _ _ _ _ _ (hpre c)
  rw [Cert.ReferenceIdeal.Read.val_main_v218_eq, (hagree c).1, (hagree c).2.1, (hagree c).2.2.1, (hagree c).2.2.2.1,
    (hagree c).2.2.2.2]
  unfold Cert.ReferenceIdeal.Read.val_main_v218
  refine congrArg (fun A => shapeCast _ A _) ?_
  funext i
  exact Cert.MoE.Ref.ref_eq_kchain _ _ _ _ _ h0 h1 h3 h4 i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
